-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x64 .f32) (main_arg3 : FVec F S64 .f32) (main_arg4 : FVec F S64x16 .f32) (main_arg5 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩

abbrev nBuf : Space → Nat
  | .hbm => 62
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x64, .f32⟩
  | .hbm, ⟨38, _⟩ => ⟨S_, .f32⟩
  | .hbm, ⟨39, _⟩ => ⟨S100000x64, .f32⟩
  | .hbm, ⟨40, _⟩ => ⟨S1700000x1, .i32⟩
  | .hbm, ⟨41, _⟩ => ⟨S100000x64, .f32⟩
  | .hbm, ⟨42, _⟩ => ⟨S1x64, .f32⟩
  | .hbm, ⟨43, _⟩ => ⟨S100000x16, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x16, .f32⟩
  | .hbm, ⟨53, _⟩ => ⟨S_, .f32⟩
  | .hbm, ⟨54, _⟩ => ⟨S100000x16, .f32⟩
  | .hbm, ⟨55, _⟩ => ⟨S1700000x1, .i32⟩
  | .hbm, ⟨56, _⟩ => ⟨S100000x16, .f32⟩
  | .hbm, ⟨57, _⟩ => ⟨S100000x16, .f32⟩
  | .hbm, ⟨58, _⟩ => ⟨S100000x16, .f32⟩
  | .hbm, ⟨59, _⟩ => ⟨S1x16, .f32⟩
  | .hbm, ⟨60, _⟩ => ⟨S100000x16, .f32⟩
  | .hbm, ⟨61, _⟩ => ⟨S100000x16, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x16, .f32⟩
  | .local _ .vmem, ⟨13, _⟩ => ⟨S5000x16, .f32⟩
  | .local _ .vmem, ⟨14, _⟩ => ⟨S5000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S16_S1x16 : S16.ShapeCasts S1x16
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x16_S5000x16_1_0_0_1_n_n_wf : DotDims.WF S5000x64 S64x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .f32 = 32 ∨ (Rect.block (s := S100000x16) S5000x16.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 129
  | .vmem => 0
  | .smem => 0
  | _ => 0

abbrev hbmTy0_0 (i : Nat) : BufTy := match i % 128 with
  | 0 => ⟨S100000x256, .f32⟩
  | 1 => ⟨S2x1600000, .i32⟩
  | 2 => ⟨S256x64, .f32⟩
  | 3 => ⟨S64, .f32⟩
  | 4 => ⟨S64x16, .f32⟩
  | 5 => ⟨S16, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S100000x64, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S1x1600000, .i32⟩
  | 70 => ⟨S1600000, .i32⟩
  | 71 => ⟨S1x1600000, .i32⟩
  | 72 => ⟨S1600000, .i32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S100000x16, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x16, .f32⟩
  | 119 => ⟨S1700000x1, .f32⟩
  | 120 => ⟨S1700000x16, .f32⟩
  | 121 => ⟨S1700000x16, .f32⟩
  | 122 => ⟨S_, .f32⟩
  | 123 => ⟨S100000x16, .f32⟩
  | 124 => ⟨S1700000x1, .i32⟩
  | 125 => ⟨S100000x16, .f32⟩
  | 126 => ⟨S1x16, .f32⟩
  | 127 => ⟨S100000x16, .f32⟩
  | _ => ⟨S100000x256, .f32⟩

abbrev hbmTy0_1 (i : Nat) : BufTy := match i % 128 with
  | 0 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  dot_S100000x256_S256x64_S100000x64_1_0_0_1_n_n_wf : DotDims.WF S100000x256 S256x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.RefImports.lean ====
/-
  The reference's run and its read-at-an-index lemmas, gathered under one import.
-/
import proofs.«178974_j63625645523608_2_alg».proof.Proof.RefRunP
import proofs.«178974_j63625645523608_2_alg».proof.Proof.RefReadP
-- ==== Proof.KernelRun.lean ====
/-
  The idealized kernel program's run with its result named.

  The program is seven segments: three stretches of host operations, the first tiled kernel, a stretch, the second
  tiled kernel, a last stretch.  Every weakly fair execution terminates without a fault, and in the final state every
  unscoped buffer holds the contents the fold of the segments leaves there; read at the result buffer that is the
  last boundary's contents at that buffer, and at each argument it is the launch contents.
-/
import proofs.«178974_j63625645523608_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v43) = W7 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v43 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.GcnRun

end
-- ==== Proof.SpecTiles.lean ====
/-
  What each of the two tiled kernels leaves in its output array, as one function of its input arrays.

  The first: row r of the product x·W₁, every entry scaled by the one entry d r of a column (scaledLin).
  The second: a·d + b row by row (d a column, b a row), maximum against 0, times W₂, again scaled by d r (reluLin).
  A tile of 5000 rows computes exactly the rows it covers: neither function mentions a tile.
-/
import proofs.«178974_j63625645523608_2_alg».proof.Proof.Gen.KernelIdeal
import Idealize.ShloMosaic.Lib.ValueIdx

noncomputable section

open scoped BigOperators

namespace Cert.Gcn

open Idealize.ShloMosaic Idealize.ShloMosaic.ValueIdx Cert.KernelIdeal

/-- What the first tiled kernel leaves as a whole array: row r of x·W₁, scaled by the column entry d r. -/
def scaledLin (x : FVec Ideal S100000x256 .f32) (w : FVec Ideal S256x64 .f32) (d : FVec Ideal S100000x1 .f32) :
    FVec Ideal S100000x64 .f32 :=
  fun r => (∑ k : Fin 256, x (ix2 (r 0 : Fin 100000) k) * w (ix2 k (r 1 : Fin 64))) * d (ix2 (r 0 : Fin 100000) (0 : Fin 1))

/-- What the second tiled kernel leaves as a whole array: row r of max(a·d + b, 0)·W₂, scaled by d r. -/
def reluLin (a : FVec Ideal S100000x64 .f32) (d : FVec Ideal S100000x1 .f32) (b : FVec Ideal S1x64 .f32)
    (w : FVec Ideal S64x16 .f32) : FVec Ideal S100000x16 .f32 :=
  fun r => (∑ k : Fin 64, max (a (ix2 (r 0 : Fin 100000) k) * d (ix2 (r 0 : Fin 100000) (0 : Fin 1)) + b (ix2 (0 : Fin 1) k)) 0
      * w (ix2 k (r 1 : Fin 16))) * d (ix2 (r 0 : Fin 100000) (0 : Fin 1))

end Cert.Gcn

end
-- ==== Proof.Spec.lean ====
/-
  A two-layer graph convolution, as the two tiled kernels and the host operations around them compute it.

  Write d for the column of per-node factors (the inverse square root of the in-degree, 0 where the degree is 0),
  src / dst for the edge list with one self-loop per node appended.  The first tiled kernel leaves, in row r,
  (x·W₁)[r] · d[r] (scaledLin); the host gathers these rows at src and adds them up at dst; the second tiled kernel
  turns the sums a into  (max(a[r]·d[r] + b₁, 0)·W₂)[r] · d[r]  (reluLin); the host gathers and adds again, scales
  row r by d[r] and adds b₂.  The index arrays, the all-zero starting arrays and the factors are the same host
  computations in both programs, so they are written here by the names the reference's stages have.
-/
import proofs.«178974_j63625645523608_2_alg».proof.Proof.SpecTiles
import proofs.«178974_j63625645523608_2_alg».proof.Proof.RefImports
import Idealize.ShloMosaic.Lib.ValueIdx

noncomputable section

open scoped BigOperators

namespace Cert.Gcn

open Idealize.ShloMosaic Idealize.ShloMosaic.ValueIdx Cert.KernelIdeal Cert.KernelIdeal.Facts₀
open Cert.ReferenceIdeal.ReadP (val_main_v14 val_main_v36 val_main_v41 val_main_v42 val_main_v84 val_main_v89 val_main_v90)

/-- The per-node factors as a column [N, 1]. -/
def dcol (a1 : IVec S2x1600000 32) : FVec Ideal S100000x1 .f32 :=
  shapeCast S100000x1 (val_main_v14 (F := Ideal) a1) shapeCasts_S100000_S100000x1

/-- The first layer's scaled rows, gathered at the sources and added up at the targets. -/
def agg1 (x : FVec Ideal S100000x256 .f32) (a1 : IVec S2x1600000 32) (w1 : FVec Ideal S256x64 .f32) :
    FVec Ideal S100000x64 .f32 :=
  Host.scatterAdd scatter_S100000x64_S1700000x1_S1700000x64_1_0_0_1 (val_main_v41 (F := Ideal)) (val_main_v42 (F := Ideal) a1)
    (Host.gather gather_S100000x64_S1700000x1_S1700000x64_1_0_n_n_0_1_164 (scaledLin x w1 (dcol a1)) (val_main_v36 (F := Ideal) a1))

/-- The second layer's scaled rows, gathered at the sources and added up at the targets. -/
def agg2 (x : FVec Ideal S100000x256 .f32) (a1 : IVec S2x1600000 32) (w1 : FVec Ideal S256x64 .f32)
    (b1 : FVec Ideal S64 .f32) (w2 : FVec Ideal S64x16 .f32) : FVec Ideal S100000x16 .f32 :=
  Host.scatterAdd scatter_S100000x16_S1700000x1_S1700000x16_1_0_0_1 (val_main_v89 (F := Ideal)) (val_main_v90 (F := Ideal) a1)
    (Host.gather gather_S100000x16_S1700000x1_S1700000x16_1_0_n_n_0_1_116
      (reluLin (agg1 x a1 w1) (dcol a1) (shapeCast S1x64 b1 shapeCasts_S64_S1x64) w2) (val_main_v84 (F := Ideal) a1))

/-- The kernel program's result as one function of its six argument arrays. -/
def outK (x : FVec Ideal S100000x256 .f32) (a1 : IVec S2x1600000 32) (w1 : FVec Ideal S256x64 .f32)
    (b1 : FVec Ideal S64 .f32) (w2 : FVec Ideal S64x16 .f32) (b2 : FVec Ideal S16 .f32) : FVec Ideal S100000x16 .f32 :=
  addf (mulf (broadcastInDim S100000x16 ![0, 1] bcast_S100000x1_S100000x16_0_1 (dcol a1)) (agg2 x a1 w1 b1 w2))
    (broadcastInDim S100000x16 ![0, 1] bcast_S1x16_S100000x16_0_1 (shapeCast S1x16 b2 shapeCasts_S16_S1x16))

end Cert.Gcn

end
-- ==== Proof.LibTypedRefs.lean ====
/-
  Typed buffer references: writing contents at the tensor type into a buffer and reading them back is the identity.

  A typed reference carries a proof that its buffer's type is a given tensor type; contents move between the two types along
  that proof. For any typed reference the move to the buffer's type followed by the move back is the identity: take the
  buffer's type as the given type (the proof is then reflexivity) and both moves are the identity cast. This does not depend
  on a program.
-/
import Idealize.ShloMosaic.Lib.StableHlo

noncomputable section

namespace Cert.Gcn

open Idealize.ShloMosaic Idealize.ShloMosaic.StableHlo

/-- Contents moved to a typed reference's buffer type and back are unchanged. -/
theorem ofBuf_toBuf {sig : RefSig} {Val : EltTy → Type} {T : BufTy} (x : TRef sig T) (v : T.Contents Val) :
    x.ofBuf (x.toBuf v) = v := by
  obtain ⟨r, h, p, q⟩ := x
  subst h
  rfl

end Cert.Gcn

end
-- ==== Proof.LibTypedRefCasts.lean ====
/-
  Typed buffer references: the two moves between a tensor type and its buffer's type are, each by itself, the identity
  up to the proof that the two types are equal.

  A typed reference carries a proof that its buffer's type is a given tensor type, and contents move between the two
  types along that proof.  Taking the buffer's type as the given type makes the proof reflexivity and both moves the
  identity, so each move's result is heterogeneously equal to its argument — for ANY typed reference, whatever its
  buffer.  When the two types are the same type the heterogeneous equality is an equality, and the move can be dropped.
  This does not depend on a program.
-/
import Idealize.ShloMosaic.Lib.StableHlo

noncomputable section

namespace Cert.Gcn

open Idealize.ShloMosaic Idealize.ShloMosaic.StableHlo

/-- Contents moved to a typed reference's buffer type are the contents. -/
theorem toBuf_heq {sig : RefSig} {Val : EltTy → Type} {T : BufTy} (x : TRef sig T) (v : T.Contents Val) :
    HEq (x.toBuf v) v := by
  obtain ⟨r, h, p, q⟩ := x
  subst h
  rfl

/-- Contents moved back from a typed reference's buffer type are the contents. -/
theorem ofBuf_heq {sig : RefSig} {Val : EltTy → Type} {T : BufTy} (x : TRef sig T) (w : x.ref.ty.Contents Val) :
    HEq (x.ofBuf w) w := by
  obtain ⟨r, h, p, q⟩ := x
  subst h
  rfl

end Cert.Gcn

end
-- ==== Proof.HostReadsA.lean ====
/-
  The kernel program's host operations before its first tiled kernel, at the ideal instance.

  Between the launch and the first tiled kernel the host builds the edge list with the self-loops appended (src, dst),
  counts the in-degrees by a scatter-add of ones, compares each degree with 0, takes its inverse square root, selects
  between that and 0, and reshapes the factors to a column.  These are the reference's own first stages, operation for
  operation, so each buffer holds the reference's stage of that name.  A stretch of host operations changes only the
  buffers its operations write: the edge list and the arguments pass through the later stretches unchanged.
-/
import proofs.«178974_j63625645523608_2_alg».proof.Proof.KernelRun
import proofs.«178974_j63625645523608_2_alg».proof.Proof.Spec
import proofs.«178974_j63625645523608_2_alg».proof.Proof.LibTypedRefs
import proofs.«178974_j63625645523608_2_alg».proof.Proof.LibTypedRefCasts

set_option maxRecDepth 16384

noncomputable section

namespace Cert.KernelIdeal.GcnHost

open Cert.KernelIdeal Cert.KernelIdeal.Gen Cert.KernelIdeal.Facts₀
open Idealize.ShloMosaic Idealize.ShloMosaic.TcCoe Idealize.SL.Sem Idealize.ShloMosaic.StableHlo
open Cert.ReferenceIdeal.ReadP (val_main_v5 val_main_v6 val_main_v12 val_main_v13 val_main_cst_2 val_main_v14)
open Cert.Gcn (dcol agg1 agg2 outK scaledLin reluLin)

variable (m : (ℓ : Loc nD τ sig) → Buf (Elt Ideal) ℓ) (ρ : Dev nD → PrngReg) (c : Dev nD)

/-! ## Before the first tiled kernel

Three boundaries: after the eighteen operations that build the edge list, the degrees, the comparison and the inverse
square root; after the three operations of the selection (degree positive ? inverse square root : 0); after the
reshape of the factors to a column. -/

theorem B1_src : (StableHlo.after hostOps0 (W0 m ρ c)) (Proc.devRef .tc main_v5) = val_main_v5 (F := Ideal) (m ((c : Thread nD τ).loc main_arg1)) := by
  simp only [hostOps0]
  after_results
  rfl

theorem B1_dst : (StableHlo.after hostOps0 (W0 m ρ c)) (Proc.devRef .tc main_v6) = val_main_v6 (F := Ideal) (m ((c : Thread nD τ).loc main_arg1)) := by
  simp only [hostOps0]
  after_results
  rfl

theorem B1_arg0 : (StableHlo.after hostOps0 (W0 m ρ c)) (Proc.devRef .tc main_arg0) = (m ((c : Thread nD τ).loc main_arg0)) := by
  simp only [hostOps0]
  after_results

theorem B1_arg2 : (StableHlo.after hostOps0 (W0 m ρ c)) (Proc.devRef .tc main_arg2) = (m ((c : Thread nD τ).loc main_arg2)) := by
  simp only [hostOps0]
  after_results

theorem B1_arg3 : (StableHlo.after hostOps0 (W0 m ρ c)) (Proc.devRef .tc main_arg3) = (m ((c : Thread nD τ).loc main_arg3)) := by
  simp only [hostOps0]
  after_results

theorem B1_arg4 : (StableHlo.after hostOps0 (W0 m ρ c)) (Proc.devRef .tc main_arg4) = (m ((c : Thread nD τ).loc main_arg4)) := by
  simp only [hostOps0]
  after_results

theorem B1_arg5 : (StableHlo.after hostOps0 (W0 m ρ c)) (Proc.devRef .tc main_arg5) = (m ((c : Thread nD τ).loc main_arg5)) := by
  simp only [hostOps0]
  after_results

/-- The comparison "degree > 0". -/
theorem B1_pos : (StableHlo.after hostOps0 (W0 m ρ c)) (Proc.devRef .tc main_v12) = val_main_v12 (F := Ideal) (m ((c : Thread nD τ).loc main_arg1)) := by
  simp only [hostOps0]
  after_results
  rfl

/-- The inverse square root of the degree. -/
theorem B1_rsqrt : (StableHlo.after hostOps0 (W0 m ρ c)) (Proc.devRef .tc main_v13) = val_main_v13 (F := Ideal) (m ((c : Thread nD τ).loc main_arg1)) := by
  simp only [hostOps0]
  after_results
  rfl

/-- The scalar zero the selection falls back to. -/
theorem B1_zero : (StableHlo.after hostOps0 (W0 m ρ c)) (Proc.devRef .tc main_cst_2) = val_main_cst_2 (F := Ideal) := by
  simp only [hostOps0]
  after_results
  rfl

/-- The per-node factors: the selection's result.  The three operations come from a called function and move their
    operands and result along typed references; every such move is the identity. -/
theorem B2_dinv : (StableHlo.after hostOps0_1 (StableHlo.after hostOps0 (W0 m ρ c))) (Proc.devRef .tc main_v14) = val_main_v14 (F := Ideal) (m ((c : Thread nD τ).loc main_arg1)) := by
  have h12 := B1_pos m ρ c
  have h13 := B1_rsqrt m ρ c
  have hz := B1_zero m ρ c
  generalize (StableHlo.after hostOps0 (W0 m ρ c)) = X at h12 h13 hz ⊢
  simp only [hostOps0_1]
  after_results
  rw [h12, h13, hz]
  simp only [Cert.Gcn.ofBuf_toBuf]
  refine eq_of_heq ((Cert.Gcn.toBuf_heq _ _).trans (heq_of_eq ?_))
  rw [show (TRef.of (sig := sig) (T := ⟨S100000, .i1⟩) main_v12).ofBuf (val_main_v12 (F := Ideal) (m ((c : Thread nD τ).loc main_arg1))) = val_main_v12 (F := Ideal) (m ((c : Thread nD τ).loc main_arg1))
        from eq_of_heq (Cert.Gcn.ofBuf_heq _ _),
      show (TRef.of (sig := sig) (T := ⟨S100000, .f32⟩) main_v13).ofBuf (val_main_v13 (F := Ideal) (m ((c : Thread nD τ).loc main_arg1))) = val_main_v13 (F := Ideal) (m ((c : Thread nD τ).loc main_arg1))
        from eq_of_heq (Cert.Gcn.ofBuf_heq _ _),
      show (TRef.of (sig := sig) (T := ⟨S_, .f32⟩) main_cst_2).ofBuf (val_main_cst_2 (F := Ideal)) = val_main_cst_2 (F := Ideal)
        from eq_of_heq (Cert.Gcn.ofBuf_heq _ _)]
  rfl

theorem B2_src : (StableHlo.after hostOps0_1 (StableHlo.after hostOps0 (W0 m ρ c))) (Proc.devRef .tc main_v5) = val_main_v5 (F := Ideal) (m ((c : Thread nD τ).loc main_arg1)) := by
  have h := B1_src m ρ c
  generalize (StableHlo.after hostOps0 (W0 m ρ c)) = X at h ⊢
  simp only [hostOps0_1]
  after_results
  exact h

theorem B2_dst : (StableHlo.after hostOps0_1 (StableHlo.after hostOps0 (W0 m ρ c))) (Proc.devRef .tc main_v6) = val_main_v6 (F := Ideal) (m ((c : Thread nD τ).loc main_arg1)) := by
  have h := B1_dst m ρ c
  generalize (StableHlo.after hostOps0 (W0 m ρ c)) = X at h ⊢
  simp only [hostOps0_1]
  after_results
  exact h

theorem B2_arg0 : (StableHlo.after hostOps0_1 (StableHlo.after hostOps0 (W0 m ρ c))) (Proc.devRef .tc main_arg0) = (m ((c : Thread nD τ).loc main_arg0)) := by
  have h := B1_arg0 m ρ c
  generalize (StableHlo.after hostOps0 (W0 m ρ c)) = X at h ⊢
  simp only [hostOps0_1]
  after_results
  exact h

theorem B2_arg2 : (StableHlo.after hostOps0_1 (StableHlo.after hostOps0 (W0 m ρ c))) (Proc.devRef .tc main_arg2) = (m ((c : Thread nD τ).loc main_arg2)) := by
  have h := B1_arg2 m ρ c
  generalize (StableHlo.after hostOps0 (W0 m ρ c)) = X at h ⊢
  simp only [hostOps0_1]
  after_results
  exact h

theorem B2_arg3 : (StableHlo.after hostOps0_1 (StableHlo.after hostOps0 (W0 m ρ c))) (Proc.devRef .tc main_arg3) = (m ((c : Thread nD τ).loc main_arg3)) := by
  have h := B1_arg3 m ρ c
  generalize (StableHlo.after hostOps0 (W0 m ρ c)) = X at h ⊢
  simp only [hostOps0_1]
  after_results
  exact h

theorem B2_arg4 : (StableHlo.after hostOps0_1 (StableHlo.after hostOps0 (W0 m ρ c))) (Proc.devRef .tc main_arg4) = (m ((c : Thread nD τ).loc main_arg4)) := by
  have h := B1_arg4 m ρ c
  generalize (StableHlo.after hostOps0 (W0 m ρ c)) = X at h ⊢
  simp only [hostOps0_1]
  after_results
  exact h

theorem B2_arg5 : (StableHlo.after hostOps0_1 (StableHlo.after hostOps0 (W0 m ρ c))) (Proc.devRef .tc main_arg5) = (m ((c : Thread nD τ).loc main_arg5)) := by
  have h := B1_arg5 m ρ c
  generalize (StableHlo.after hostOps0 (W0 m ρ c)) = X at h ⊢
  simp only [hostOps0_1]
  after_results
  exact h

/-- The per-node factors as a column. -/
theorem W3_dcol : W3 (F := Ideal) m ρ c (Proc.devRef .tc main_v15) = dcol (m ((c : Thread nD τ).loc main_arg1)) := by
  show StableHlo.after hostOps0_2 (StableHlo.after hostOps0_1 (StableHlo.after hostOps0 (W0 m ρ c))) (Proc.devRef .tc main_v15) = _
  have h := B2_dinv m ρ c
  generalize (StableHlo.after hostOps0_1 (StableHlo.after hostOps0 (W0 m ρ c))) = Y at h ⊢
  simp only [hostOps0_2]
  after_results
  rw [h]
  rfl

theorem W3_src : W3 (F := Ideal) m ρ c (Proc.devRef .tc main_v5) = val_main_v5 (F := Ideal) (m ((c : Thread nD τ).loc main_arg1)) := by
  show StableHlo.after hostOps0_2 (StableHlo.after hostOps0_1 (StableHlo.after hostOps0 (W0 m ρ c))) (Proc.devRef .tc main_v5) = _
  have h := B2_src m ρ c
  generalize (StableHlo.after hostOps0_1 (StableHlo.after hostOps0 (W0 m ρ c))) = Y at h ⊢
  simp only [hostOps0_2]
  after_results
  exact h

theorem W3_dst : W3 (F := Ideal) m ρ c (Proc.devRef .tc main_v6) = val_main_v6 (F := Ideal) (m ((c : Thread nD τ).loc main_arg1)) := by
  show StableHlo.after hostOps0_2 (StableHlo.after hostOps0_1 (StableHlo.after hostOps0 (W0 m ρ c))) (Proc.devRef .tc main_v6) = _
  have h := B2_dst m ρ c
  generalize (StableHlo.after hostOps0_1 (StableHlo.after hostOps0 (W0 m ρ c))) = Y at h ⊢
  simp only [hostOps0_2]
  after_results
  exact h

theorem W3_arg0 : W3 (F := Ideal) m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  have h := B2_arg0 m ρ c
  generalize (StableHlo.after hostOps0_1 (StableHlo.after hostOps0 (W0 m ρ c))) = Y at h ⊢
  simp only [hostOps0_2]
  after_results
  exact h

theorem W3_arg2 : W3 (F := Ideal) m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  have h := B2_arg2 m ρ c
  generalize (StableHlo.after hostOps0_1 (StableHlo.after hostOps0 (W0 m ρ c))) = Y at h ⊢
  simp only [hostOps0_2]
  after_results
  exact h

theorem W3_arg3 : W3 (F := Ideal) m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  have h := B2_arg3 m ρ c
  generalize (StableHlo.after hostOps0_1 (StableHlo.after hostOps0 (W0 m ρ c))) = Y at h ⊢
  simp only [hostOps0_2]
  after_results
  exact h

theorem W3_arg4 : W3 (F := Ideal) m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  have h := B2_arg4 m ρ c
  generalize (StableHlo.after hostOps0_1 (StableHlo.after hostOps0 (W0 m ρ c))) = Y at h ⊢
  simp only [hostOps0_2]
  after_results
  exact h

theorem W3_arg5 : W3 (F := Ideal) m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  have h := B2_arg5 m ρ c
  generalize (StableHlo.after hostOps0_1 (StableHlo.after hostOps0 (W0 m ρ c))) = Y at h ⊢
  simp only [hostOps0_2]
  after_results
  exact h

end Cert.KernelIdeal.GcnHost

end
-- ==== Proof.LibDense.lean ====
/-
  A dense layer and a three-layer perceptron, read one output at a time over the extended reals.

  A plain product of an M×K by a K×N array into a zero accumulator is, at row r and column c, the sum over k of
  lhs (r, k) · rhs (k, c) (plain_matmul_apply); a column [M,1] stretched along the second axis reads its row's one
  entry (broadcast_col_apply). So a dense layer on a tile of T columns — the product of the weights with the tile plus
  the stretched bias — reads, in column q, the weights applied to column q alone (dense_apply): a tile's width and
  position never enter. Three such layers with a maximum against a zero after the first two are, column by column, the
  scalar function mlpAt of that column (mlpTile_apply), whatever the width of the tile and whatever formats the arrays
  are held in (a change of format is the identity on the extended reals). mlpOut is the same function laid out batch
  major: row n of the result is mlpAt of row n of the input. No program is mentioned here.
-/
import Idealize.ShloMosaic.PureOps.Ideal.Laws
import Idealize.ShloMosaic.Lib.ValueIdx
import Idealize.ShloMosaic.Lib.Pipeline.Value

noncomputable section

open scoped BigOperators

namespace LibDense

open Idealize.ShloMosaic Idealize.ShloMosaic.ValueIdx

/-- A plain M×K by K×N product into the zero accumulator, at (r, c): the sum over k of lhs (r, k) · rhs (k, c). -/
theorem plain_matmul_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c)
      = ∑ k : Fin K, lhs (ix2 r k) * rhs (ix2 k c) := by
  subst hd
  refine (Ideal.matmul_constant_zero_apply (DotDims.plain M K N) prec lhs rhs (ix2 r c)).trans ?_
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hl : (DotDims.plain M K N).lhsIdx (ix2 r c) ((contrEquiv1 (DotDims.plain M K N) K hr hs).symm k) = ix2 r k := by
    funext a
    apply Fin.ext
    match a with
    | ⟨0, _⟩ => rfl
    | ⟨1, _⟩ =>
      exact ((DotDims.plain M K N).lhsIdx_val_of_single (cl := (1 : Fin 2)) rfl _ _).trans
        (contrEquiv1_symm_val _ K hr hs k)
  have hrr : (DotDims.plain M K N).rhsIdx (ix2 r c) ((contrEquiv1 (DotDims.plain M K N) K hr hs).symm k) = ix2 k c := by
    funext a
    apply Fin.ext
    match a with
    | ⟨0, _⟩ =>
      exact ((DotDims.plain M K N).rhsIdx_val_of_single (cr := (0 : Fin 2)) rfl _ _).trans
        (contrEquiv1_symm_val _ K hr hs k)
    | ⟨1, _⟩ => rfl
  rw [hl, hrr]

/-- A column [M,1] stretched to [M,N] reads, at (r, c), the column's entry of row r. -/
theorem broadcast_col_apply {M N : ℕ} {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- One output of a dense layer: row r of the weights applied to the vector h, plus the bias of row r. -/
def denseAt {M K : ℕ} (w : (⟨2, ![M, K]⟩ : Shape).Idx → EReal) (b : (⟨2, ![M, 1]⟩ : Shape).Idx → EReal)
    (h : Fin K → EReal) (r : Fin M) : EReal :=
  (∑ k : Fin K, w (ix2 r k) * h k) + b (ix2 r (0 : Fin 1))

/-- A dense layer on a tile of T columns, read at (r, q): the layer's output r on column q of the tile. -/
theorem dense_apply {M K T : ℕ} {φ₁ φ₂ φ₃ : FTy} (d : DotDims ⟨2, ![M, K]⟩ ⟨2, ![K, T]⟩ ⟨2, ![M, T]⟩)
    (hd : d = DotDims.plain M K T) (hb : (⟨2, ![M, 1]⟩ : Shape).Broadcasts ⟨2, ![M, T]⟩)
    (w : FVec Ideal ⟨2, ![M, K]⟩ φ₁) (b : FVec Ideal ⟨2, ![M, 1]⟩ φ₃) (h : FVec Ideal ⟨2, ![K, T]⟩ φ₂)
    (r : Fin M) (q : Fin T) :
    matmul d none w h (constant ⟨2, ![M, T]⟩ .f32 0x00000000#32) (ix2 r q) + broadcastTo ⟨2, ![M, T]⟩ b hb (ix2 r q)
      = denseAt w b (fun k => h (ix2 k q)) r := by
  rw [plain_matmul_apply d hd, broadcast_col_apply]
  rfl

/-- The three-layer perceptron on one input vector x, output c: dense, maximum with zero, dense, maximum with zero, dense. -/
def mlpAt {D0 D1 D2 D3 : ℕ} (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (x : Fin D0 → EReal) (c : Fin D3) : EReal :=
  denseAt w3 b3 (fun k => max (denseAt w2 b2 (fun j => max (denseAt w1 b1 x j) 0) k) 0) c

/-- The perceptron on a feature-major tile of T columns as vector operations compute it: each layer a plain product into
    a zero accumulator plus the stretched bias, the first two followed by a maximum against a splat z. -/
def mlpTile {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, T]⟩ : Shape).Idx → EReal :=
  let h1 : FVec Ideal ⟨2, ![D1, T]⟩ .f32 :=
    maximumf (addf (matmul (φ₁ := .f32) (φ₂ := .f32) d1 none w1 x (constant ⟨2, ![D1, T]⟩ .f32 0x00000000#32)) (broadcastTo ⟨2, ![D1, T]⟩ b1 hb1))
      (broadcast ⟨2, ![D1, T]⟩ z1)
  let h2 : FVec Ideal ⟨2, ![D2, T]⟩ .f32 :=
    maximumf (addf (matmul (φ₁ := .f32) (φ₂ := .f32) d2 none w2 h1 (constant ⟨2, ![D2, T]⟩ .f32 0x00000000#32)) (broadcastTo ⟨2, ![D2, T]⟩ b2 hb2))
      (broadcast ⟨2, ![D2, T]⟩ z2)
  addf (φ := .f32) (matmul (φ₁ := .f32) (φ₂ := .f32) d3 none w3 h2 (constant ⟨2, ![D3, T]⟩ .f32 0x00000000#32)) (broadcastTo ⟨2, ![D3, T]⟩ b3 hb3)

/-- Column by column the tile computation is the scalar perceptron of that column: the tile's width never enters. -/
theorem mlpTile_apply {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hd1 : d1 = DotDims.plain D1 D0 T) (hd2 : d2 = DotDims.plain D2 D1 T) (hd3 : d3 = DotDims.plain D3 D2 T)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal) (hz1 : z1 = 0) (hz2 : z2 = 0)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (c : Fin D3) (q : Fin T) :
    mlpTile d1 d2 d3 hb1 hb2 hb3 z1 z2 x w1 b1 w2 b2 w3 b3 (ix2 c q)
      = mlpAt w1 b1 w2 b2 w3 b3 (fun i => x (ix2 i q)) c := by
  subst hz1 hz2
  unfold mlpTile mlpAt
  rw [addf_apply]
  refine (dense_apply (φ₁ := .f32) (φ₂ := .f32) (φ₃ := .f32) d3 hd3 hb3 w3 b3 _ c q).trans ?_
  refine congrArg (fun f => denseAt w3 b3 f c) (funext fun k => ?_)
  rw [maximumf_apply, addf_apply, broadcast_apply]
  refine congrArg (fun v => max v 0) ?_
  refine (dense_apply (φ₁ := .f32) (φ₂ := .f32) (φ₃ := .f32) d2 hd2 hb2 w2 b2 _ k q).trans ?_
  refine congrArg (fun f => denseAt w2 b2 f k) (funext fun j => ?_)
  rw [maximumf_apply, addf_apply, broadcast_apply]
  refine congrArg (fun v => max v 0) ?_
  exact dense_apply (φ₁ := .f32) (φ₂ := .f32) (φ₃ := .f32) d1 hd1 hb1 w1 b1 x j q

/-- The perceptron batch major: row n of the result is the scalar perceptron of row n of the input. -/
def mlpOut {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![B, D3]⟩ : Shape).Idx → EReal :=
  fun i => mlpAt w1 b1 w2 b2 w3 b3 (fun k => x (ix2 (i 0 : Fin B) k)) (i 1 : Fin D3)

theorem mlpOut_apply {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (n : Fin B) (c : Fin D3) :
    mlpOut x w1 b1 w2 b2 w3 b3 (ix2 n c) = mlpAt w1 b1 w2 b2 w3 b3 (fun k => x (ix2 n k)) c := rfl

/-- The perceptron feature major: column n of the result is the scalar perceptron of column n of the input. -/
def mlpOutT {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, B]⟩ : Shape).Idx → EReal :=
  fun i => mlpAt w1 b1 w2 b2 w3 b3 (fun k => xT (ix2 k (i 1 : Fin B))) (i 0 : Fin D3)

theorem mlpOutT_apply {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (c : Fin D3) (n : Fin B) :
    mlpOutT xT w1 b1 w2 b2 w3 b3 (ix2 c n) = mlpAt w1 b1 w2 b2 w3 b3 (fun k => xT (ix2 k n)) c := rfl

/-- The word of all zero bits denotes zero in the sixteen-bit format too. -/
theorem ofBits_zero_bf16 : Ideal.ofBits .bf16 0x0000#16 = 0 := by simp [Ideal.ofBits, Ideal.ieee]

end LibDense

end
-- ==== Proof.Region0.lean ====
/-
  The first tiled kernel, from blocks to the whole array.

  A tile holds 5000 rows of x, all of W₁ and the same 5000 rows of the column d. One entry of what it stores is the
  product's entry — a sum over the 256 shared coordinates, formats changed by the identity, the accumulator zero —
  scaled by the row's entry of d (tile_entry). Point t of the twenty holds rows t·5000 … t·5000 + 4999, so its store is
  those rows of scaledLin x W₁ d (tile_is_rows, block_written); row r lies in the block of point r / 5000 and every
  point writes back (rows_covered); hence the result array is scaledLin x W₁ d (region0_final).
-/
import proofs.«178974_j63625645523608_2_alg».proof.Proof.Gen.KernelIdeal.Frame
import proofs.«178974_j63625645523608_2_alg».proof.Proof.SpecTiles
import proofs.«178974_j63625645523608_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GcnVal0

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-tile access, however spelt. -/
theorem zero_offsets : (![0, 0] : Fin 2 → Nat) = fun _ => 0 := funext fun a => by fin_cases a <;> rfl

/-- One entry of what a tile computes: row p of the tile's rows of x times column q of W₁ (a change of format is the
    identity on the extended reals, the product starts from the zero accumulator), scaled by the tile's column entry of row p. -/
theorem tile_entry (x0 : Vec Ideal S5000x256 .f32) (x1 : Vec Ideal S256x64 .f32) (x2 : Vec Ideal S5000x1 .f32)
    (p : Fin 5000) (q : Fin 64) :
    Gen.k0_pay1 x0 x1 x2 (ix2 p q) = (∑ k : Fin 256, x0 (ix2 p k) * x1 (ix2 k q)) * x2 (ix2 p (0 : Fin 1)) := by
  unfold Gen.k0_pay1
  have h1 := LibDense.plain_matmul_apply (M := 5000) (K := 256) (N := 64) dot_S5000x256_S256x64_S5000x64_1_0_0_1_n_n rfl none
    (truncf .bf16 x0 bitsLt_bf16_f32 : FVec Ideal S5000x256 .bf16) (truncf .bf16 x1 bitsLt_bf16_f32 : FVec Ideal S256x64 .bf16) p q
  have h2 : broadcastTo S5000x64 (shapeCast S5000x1 x2 shapeCasts_S5000x1_S5000x1) broadcasts_S5000x1_S5000x64 (ix2 p q)
      = x2 (ix2 p (0 : Fin 1)) :=
    (LibDense.broadcast_col_apply (M := 5000) (N := 64) (shapeCast S5000x1 x2 shapeCasts_S5000x1_S5000x1)
      broadcasts_S5000x1_S5000x64 p q).trans (congrFun (shapeCast_self x2 shapeCasts_S5000x1_S5000x1) (ix2 p (0 : Fin 1)))
  exact congrArg₂ (· * ·) h1 h2

/-- The printed index maps, decided over the grid: point t's blocks of x, of the column and of the result are the
    t-th blocks of rows; W₁ is one block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- An index of the result array is in point t's block iff each coordinate is in the block's range on its axis. -/
theorem mem_block (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

/-- A tile that holds rows n·5000 … n·5000 + 4999 of x and of the column, and all of W₁, computes the whole array's
    entries of those rows: the tile's entry (p, q) is the array's entry (n·5000 + p, q). Stated over plain arrays and
    coordinates, so that a tile's position enters only through the three hypotheses. -/
theorem tile_is_rows (X0 : FVec Ideal S100000x256 .f32) (X1 : FVec Ideal S256x64 .f32) (X2 : FVec Ideal S100000x1 .f32)
    (x0 : Vec Ideal S5000x256 .f32) (x1 : Vec Ideal S256x64 .f32) (x2 : Vec Ideal S5000x1 .f32) (n : ℕ)
    (h0 : ∀ (y : S5000x256.Idx) (i : S100000x256.Idx), (i 0).val = n * 5000 + (y 0).val → (i 1).val = (y 1).val → x0 y = X0 i)
    (h1 : ∀ y : S256x64.Idx, x1 y = X1 y)
    (h2 : ∀ (y : S5000x1.Idx) (i : S100000x1.Idx), (i 0).val = n * 5000 + (y 0).val → x2 y = X2 i)
    (y : S5000x64.Idx) (i : S100000x64.Idx) (hi0 : (i 0).val = n * 5000 + (y 0).val) (hi1 : (i 1).val = (y 1).val) :
    Gen.k0_pay1 x0 x1 x2 y = Cert.Gcn.scaledLin X0 X1 X2 i := by
  obtain ⟨p, q, rfl⟩ : ∃ (p : Fin 5000) (q : Fin 64), y = ix2 p q := ⟨y 0, y 1, eq_ix2 y⟩
  have hq : (i 1 : Fin 64) = q := Fin.ext hi1
  refine (tile_entry x0 x1 x2 p q).trans ?_
  unfold Cert.Gcn.scaledLin
  refine congrArg₂ (· * ·) (Finset.sum_congr rfl fun k _ => congrArg₂ (· * ·)
      (h0 (ix2 p k) (ix2 (i 0 : Fin 100000) k) hi0 rfl) ?_)
    (h2 (ix2 p (0 : Fin 1)) (ix2 (i 0 : Fin 100000) (0 : Fin 1)) hi0)
  exact (h1 (ix2 k q)).trans (congrArg (fun c : Fin 64 => X1 (ix2 k c)) hq.symm)

/-- What point t writes back is block t of scaledLin of the arrays as the region finds them: the result's block is
    rows t·5000 … of the array, the blocks of x and of the column are the same rows of theirs, W₁'s block is W₁
    (a block's coordinate is index × size + 1 × the coordinate inside the block). -/
theorem block_written (V : (c : Dev nD) → (b : Ref sig .tc) → Buf (Elt Ideal) ((c : Thread nD τ).loc b)) (c : Dev nD)
    (t : Fin cfg0.N) :
    (Gen.dat0 (F := Ideal) V c).flushed 3 t
      = ((cfg0.win 3).blk t).view.read (Elt Ideal) (Cert.Gcn.scaledLin (V c main_arg0) (V c main_arg2) (V c main_v15)) := by
  show (cfg0.win 3).cut (grid0.coords t) ((Gen.dat0 (F := Ideal) V c).after 3 t) = _
  rw [after0_3]
  unfold out0_3
  rw [View.canon_unit_zero zero_offsets]
  simp only [View.ld_unit_zero (S := S5000x256) zero_offsets, View.ld_unit_zero (S := S256x64) zero_offsets,
    View.ld_unit_zero (S := S5000x1) zero_offsets]
  obtain ⟨e00, e01, e10, e11, e20, e21, e30, e31⟩ := index_maps t
  funext j
  show Gen.k0_pay1 (iblk0 V c 0 t) (iblk0 V c 1 t) (iblk0 V c 2 t) j
    = Cert.Gcn.scaledLin (V c main_arg0) (V c main_arg2) (V c main_v15) (((cfg0.win 3).blk t).view.emb j)
  refine tile_is_rows (V c main_arg0) (V c main_arg2) (V c main_v15) (iblk0 V c 0 t) (iblk0 V c 1 t) (iblk0 V c 2 t) t.val
    ?_ ?_ ?_ j (((cfg0.win 3).blk t).view.emb j) ?_ ?_
  · intro y i hi0 hi1
    show V c main_arg0 (((cfg0.win 0).blk t).view.emb y) = V c main_arg0 i
    congr 1
    funext a
    apply Fin.ext
    match a with
    | ⟨0, _⟩ => show win0_0.index t (0 : Fin 2) * 5000 + 1 * (y 0).val = (i 0).val; omega
    | ⟨1, _⟩ => show win0_0.index t (1 : Fin 2) * 256 + 1 * (y 1).val = (i 1).val; omega
  · intro y
    show V c main_arg2 (((cfg0.win 1).blk t).view.emb y) = V c main_arg2 y
    congr 1
    funext a
    apply Fin.ext
    match a with
    | ⟨0, _⟩ => show win0_1.index t (0 : Fin 2) * 256 + 1 * (y 0).val = (y 0).val; omega
    | ⟨1, _⟩ => show win0_1.index t (1 : Fin 2) * 64 + 1 * (y 1).val = (y 1).val; omega
  · intro y i hi0
    show V c main_v15 (((cfg0.win 2).blk t).view.emb y) = V c main_v15 i
    congr 1
    funext a
    apply Fin.ext
    match a with
    | ⟨0, _⟩ => show win0_2.index t (0 : Fin 2) * 5000 + 1 * (y 0).val = (i 0).val; omega
    | ⟨1, _⟩ =>
      show win0_2.index t (1 : Fin 2) * 1 + 1 * (y 1).val = (i 1).val
      have hy : (y 1).val < 1 := (y 1).isLt
      have hi : (i 1).val < 1 := (i 1).isLt
      omega
  · show win0_3.index t (0 : Fin 2) * 5000 + 1 * (j 0).val = t.val * 5000 + (j 0).val; omega
  · show win0_3.index t (1 : Fin 2) * 64 + 1 * (j 1).val = (j 1).val; omega

/-- Every entry of the result array is written: row r lies in the block of point r / 5000, and every point writes
    its block back. -/
theorem rows_covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 20 := Gen.N_0
  obtain ⟨t, ht⟩ : ∃ t : Fin cfg0.N, t.val = (i 0).val / 5000 :=
    ⟨⟨(i 0).val / 5000, by show (i 0).val / 5000 < grid0.N; omega⟩, rfl⟩
  obtain ⟨-, -, -, -, -, -, e30, e31⟩ := index_maps t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- THE RESULT ARRAY after the first tiled kernel: scaledLin of x, W₁ and the column as the region finds them —
    every block written is that function's block, and the blocks cover the array. -/
theorem region0_final (V : (c : Dev nD) → (b : Ref sig .tc) → Buf (Elt Ideal) ((c : Thread nD τ).loc b)) (c : Dev nD) :
    (Gen.dat0 (F := Ideal) V c).arrAt 3 cfg0.N = Cert.Gcn.scaledLin (V c main_arg0) (V c main_arg2) (V c main_v15) :=
  (Gen.dat0 (F := Ideal) V c).arrAt_eq_of_cover 3 (Cert.Gcn.scaledLin (V c main_arg0) (V c main_arg2) (V c main_v15))
    (fun t _ => block_written V c t) fun i => rows_covered i

end Cert.KernelIdeal.GcnVal0

end
-- ==== Proof.Region1.lean ====
/-
  The second tiled kernel, from its twenty tiles of 5000 rows to the whole result array, over the extended reals.

  At row p and column q a tile computes (∑ k, max (a (p, k) · d p + b k, 0) · w (k, q)) · d p from its own rows of a and d
  and the whole of b and w (layer2_tile_apply): the two changes of format are the identity, the product into the zero
  accumulator is the sum over the 64 columns, the stretched column reads its row's entry and the stretched row its
  column's. Tile t holds rows 5000 t … 5000 t + 4999 of a and of d, and the whole bias row and weights at every t
  (rows_block_apply … weights_block_apply), so what tile t writes back is rows 5000 t … 5000 t + 4999 of the one function
  reluLin of the four whole arrays (writeback_eq). Row r lies in tile r / 5000 (blocks_cover), so after the twenty tiles
  the result array is reluLin of the four arrays as they were when the tiles began (region1_final).
-/
import proofs.«178974_j63625645523608_2_alg».proof.Proof.Gen.KernelIdeal.Frame
import proofs.«178974_j63625645523608_2_alg».proof.Proof.SpecTiles
import proofs.«178974_j63625645523608_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.GcnVal1

open Cert.KernelIdeal Cert.KernelIdeal.Gen Idealize.ShloMosaic Idealize.ShloMosaic.TcCoe Idealize.SL.Sem
open Idealize.ShloMosaic.ValueIdx
open Idealize.ShloMosaic.Pipeline (Dat)

/-- A row [1,N] stretched to [M,N] reads, at (r, c), the row's entry of column c. -/
theorem broadcast_row_apply {M N : ℕ} {α : Type} (v : (⟨2, ![1, N]⟩ : Shape).Idx → α)
    (h : (⟨2, ![1, N]⟩ : Shape).Broadcasts ⟨2, ![M, N]⟩) (r : Fin M) (c : Fin N) :
    broadcastTo ⟨2, ![M, N]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if N = 1 then 0 else c.val
    split
    · have := c.isLt; omega
    · rfl

/-- The body's arithmetic at row p and column q of a tile: the row of a, scaled by the row's factor, plus the bias row,
    cut off below at zero, applied to column q of the weights, and scaled by the row's factor again. A change of format
    is the identity on the extended reals, and the all-zero word denotes zero. -/
theorem layer2_tile_apply (a : Vec Ideal S5000x64 .f32) (d : Vec Ideal S5000x1 .f32) (b : Vec Ideal S1x64 .f32)
    (w : Vec Ideal S64x16 .f32) (d' : Vec Ideal S5000x1 .f32) (p : Fin 5000) (q : Fin 16) :
    Gen.k1_pay1 (F := Ideal) a d b w d' (ix2 p q)
      = (∑ k : Fin 64, max (a (ix2 p k) * d (ix2 p (0 : Fin 1)) + b (ix2 (0 : Fin 1) k)) 0 * w (ix2 k q))
          * d' (ix2 p (0 : Fin 1)) := by
  unfold Gen.k1_pay1
  simp only [shapeCast_self]
  rw [mulf_apply]
  refine congrArg₂ (· * ·) ?_ (LibDense.broadcast_col_apply d' _ p q)
  refine (LibDense.plain_matmul_apply _ rfl none _ _ p q).trans ?_
  refine Finset.sum_congr rfl fun k _ => ?_
  rw [truncf_apply, truncf_apply, maximumf_apply, addf_apply, mulf_apply, broadcast_apply,
    LibDense.broadcast_col_apply d _ p k, broadcast_row_apply b _ p k]
  exact congrArg (fun z => max (a (ix2 p k) * d (ix2 p (0 : Fin 1)) + b (ix2 (0 : Fin 1) k)) z * w (ix2 k q))
    Ideal.ofBits_zero_f32

/-- One row of a tile against the same row of the whole array: when row (j 0) of the tile's first input is row (i 0) of
    the whole first input, the tile's factor of that row is the whole column's entry of row (i 0), the bias rows agree
    and column (j 1) of the tile's weights is column (i 1) of the whole weights, the tile's arithmetic at j is the whole
    array's function at i. -/
theorem tile_at_eq_whole_at (A : Vec Ideal S100000x64 .f32) (D : Vec Ideal S100000x1 .f32) (B : Vec Ideal S1x64 .f32)
    (W : Vec Ideal S64x16 .f32) (a : Vec Ideal S5000x64 .f32) (d : Vec Ideal S5000x1 .f32) (b : Vec Ideal S1x64 .f32)
    (w : Vec Ideal S64x16 .f32) (j : S5000x16.Idx) (i : S100000x16.Idx)
    (ha : ∀ k : Fin 64, a (ix2 (j 0 : Fin 5000) k) = A (ix2 (i 0 : Fin 100000) k))
    (hd : d (ix2 (j 0 : Fin 5000) (0 : Fin 1)) = D (ix2 (i 0 : Fin 100000) (0 : Fin 1)))
    (hb : ∀ k : Fin 64, b (ix2 (0 : Fin 1) k) = B (ix2 (0 : Fin 1) k))
    (hw : ∀ k : Fin 64, w (ix2 k (j 1 : Fin 16)) = W (ix2 k (i 1 : Fin 16))) :
    Gen.k1_pay1 (F := Ideal) a d b w d j = Cert.Gcn.reluLin A D B W i := by
  refine (congrArg (Gen.k1_pay1 (F := Ideal) a d b w d) (eq_ix2 j)).trans ?_
  refine (layer2_tile_apply a d b w d (j 0) (j 1)).trans ?_
  unfold Cert.Gcn.reluLin
  rw [hd]
  refine congrArg (· * D (ix2 (i 0 : Fin 100000) (0 : Fin 1))) ?_
  refine Finset.sum_congr rfl fun k _ => ?_
  rw [ha k, hb k, hw k]

/-- The zero offsets of a whole-buffer access, however they are spelt. -/
theorem offsets_zero : (![0, 0] : Fin 2 → Nat) = fun _ => 0 := funext fun a => by fin_cases a <;> rfl

/-- The index maps over the twenty points: the row blocks of the first input, of the factor column and of the result
    are block (t, 0) at point t; the bias row and the weights are block (0, 0) at every point. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section AtEntry

variable (V : (c : Dev nD) → (b : Ref sig .tc) → Buf (Elt Ideal) ((c : Thread nD τ).loc b))

/-- The first input's block at point t is rows 5000 t … 5000 t + 4999 of the array. -/
theorem rows_block_apply (c : Dev nD) (t : Fin cfg1.N) (x : S5000x64.Idx) (i : S100000x64.Idx)
    (h0 : (i 0).val = t.val * 5000 + (x 0).val) (h1 : (i 1).val = (x 1).val) :
    (Gen.iblk1 (F := Ideal) V c 0 t : Vec Ideal S5000x64 .f32) x = (V c main_v26 : Vec Ideal S100000x64 .f32) i := by
  obtain ⟨e0, e1, -⟩ := index_facts t
  unfold Gen.iblk1
  rw [View.read_apply]
  show V c main_v26 _ = V c main_v26 _
  congr 1
  funext a
  apply Fin.ext
  match a with
  | ⟨0, _⟩ => show win1_0.index t (0 : Fin 2) * 5000 + 1 * (x 0).val = (i 0).val; rw [e0, h0]; omega
  | ⟨1, _⟩ => show win1_0.index t (1 : Fin 2) * 64 + 1 * (x 1).val = (i 1).val; rw [e1, h1]; omega

/-- The factor column's block at point t is rows 5000 t … 5000 t + 4999 of the column. -/
theorem factor_block_apply (c : Dev nD) (t : Fin cfg1.N) (x : S5000x1.Idx) (i : S100000x1.Idx)
    (h0 : (i 0).val = t.val * 5000 + (x 0).val) (h1 : (i 1).val = (x 1).val) :
    (Gen.iblk1 (F := Ideal) V c 1 t : Vec Ideal S5000x1 .f32) x = (V c main_v15 : Vec Ideal S100000x1 .f32) i := by
  obtain ⟨-, -, e0, e1, -⟩ := index_facts t
  unfold Gen.iblk1
  rw [View.read_apply]
  show V c main_v15 _ = V c main_v15 _
  congr 1
  funext a
  apply Fin.ext
  match a with
  | ⟨0, _⟩ => show win1_1.index t (0 : Fin 2) * 5000 + 1 * (x 0).val = (i 0).val; rw [e0, h0]; omega
  | ⟨1, _⟩ => show win1_1.index t (1 : Fin 2) * 1 + 1 * (x 1).val = (i 1).val; rw [e1, h1]; omega

/-- The bias row's block is the whole row at every point. -/
theorem bias_block_apply (c : Dev nD) (t : Fin cfg1.N) (x : S1x64.Idx) :
    (Gen.iblk1 (F := Ideal) V c 2 t : Vec Ideal S1x64 .f32) x = (V c main_v27 : Vec Ideal S1x64 .f32) x := by
  obtain ⟨-, -, -, -, e0, e1, -⟩ := index_facts t
  unfold Gen.iblk1
  rw [View.read_apply]
  show V c main_v27 _ = V c main_v27 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 64 + 1 * (x 1).val = (x 1).val; rw [e1]; omega

/-- The weights' block is the whole array at every point. -/
theorem weights_block_apply (c : Dev nD) (t : Fin cfg1.N) (x : S64x16.Idx) :
    (Gen.iblk1 (F := Ideal) V c 3 t : Vec Ideal S64x16 .f32) x = (V c main_arg4 : Vec Ideal S64x16 .f32) x := by
  obtain ⟨-, -, -, -, -, -, e0, e1, -⟩ := index_facts t
  unfold Gen.iblk1
  rw [View.read_apply]
  show V c main_arg4 _ = V c main_arg4 _
  congr 1
  funext a
  apply Fin.ext
  match a with
  | ⟨0, _⟩ => show win1_3.index t (0 : Fin 2) * 64 + 1 * (x 0).val = (x 0).val; rw [e0]; omega
  | ⟨1, _⟩ => show win1_3.index t (1 : Fin 2) * 16 + 1 * (x 1).val = (x 1).val; rw [e1]; omega

/-- What point t writes back is block t of the whole array's function: each input block read where the result block's
    rectangle says. -/
theorem writeback_eq (c : Dev nD) (t : Fin cfg1.N) :
    (Gen.dat1 (F := Ideal) V c).flushed 4 t
      = ((cfg1.win 4).blk t).view.read (Elt Ideal)
          (Cert.Gcn.reluLin (V c main_v26) (V c main_v15) (V c main_v27) (V c main_arg4)) := by
  show (cfg1.win 4).cut (grid1.coords t) ((Gen.dat1 V c).after 4 t) = _
  rw [Gen.after1_4]
  unfold Gen.out1_4
  rw [View.canon_unit_zero offsets_zero]
  simp only [View.ld_unit_zero (S := S5000x64) offsets_zero, View.ld_unit_zero (S := S5000x1) offsets_zero,
    View.ld_unit_zero (S := S1x64) offsets_zero, View.ld_unit_zero (S := S64x16) offsets_zero]
  obtain ⟨-, -, -, -, -, -, -, -, e0, e1⟩ := index_facts t
  funext j
  have r0 : ((((cfg1.win 4).blk t).view.emb j) 0).val = t.val * 5000 + (j 0).val := by
    show win1_4.index t (0 : Fin 2) * 5000 + 1 * (j 0).val = _
    rw [e0]; omega
  have r1 : ((((cfg1.win 4).blk t).view.emb j) 1).val = (j 1).val := by
    show win1_4.index t (1 : Fin 2) * 16 + 1 * (j 1).val = _
    rw [e1]; omega
  exact tile_at_eq_whole_at (V c main_v26) (V c main_v15) (V c main_v27) (V c main_arg4)
    (Gen.iblk1 V c 0 t) (Gen.iblk1 V c 1 t) (Gen.iblk1 V c 2 t) (Gen.iblk1 V c 3 t) j (((cfg1.win 4).blk t).view.emb j)
    (fun k => rows_block_apply V c t (ix2 (j 0 : Fin 5000) k) (ix2 ((((cfg1.win 4).blk t).view.emb j) 0 : Fin 100000) k) r0 rfl)
    (factor_block_apply V c t (ix2 (j 0 : Fin 5000) (0 : Fin 1)) (ix2 ((((cfg1.win 4).blk t).view.emb j) 0 : Fin 100000) (0 : Fin 1)) r0 rfl)
    (fun k => bias_block_apply V c t (ix2 (0 : Fin 1) k))
    (fun k => (weights_block_apply V c t (ix2 k (j 1 : Fin 16))).trans
      (congrArg (fun q : Fin 16 => (V c main_arg4 : Vec Ideal S64x16 .f32) (ix2 k q)) (Fin.ext r1.symm)))

/-- An index of the result array is in point t's block iff each coordinate is in the block's range on its axis. -/
theorem mem_block (t : Fin cfg1.N) (i : S100000x16.Idx) :
    i ∈ ((cfg1.win 4).blk t).view.set ↔ ∀ a : Fin 2, win1_4.index t a * S5000x16.size a ≤ (i a).val
      ∧ (i a).val < win1_4.index t a * S5000x16.size a + S5000x16.size a := by
  show i ∈ ((View.whole main_v28).slice (win1_4.rect t)).set ↔ _
  rw [View.set_slice_whole, Rect.mem_set_unit]
  exact Iff.rfl

/-- Row r of the result array is in the block of point r / 5000: the twenty blocks tile the array. -/
theorem blocks_cover (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  have hN : cfg1.N = 20 := Gen.N_1
  let t : Fin cfg1.N := ⟨(i 0).val / 5000, by rw [hN]; omega⟩
  obtain ⟨-, -, -, -, -, -, -, -, e0, e1⟩ := index_facts t
  have ht : t.val = (i 0).val / 5000 := rfl
  refine ⟨t, Gen.flush1_4 t, ?_⟩
  rw [mem_block]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 16 ≤ (i 1).val ∧ (i 1).val < win1_4.index t (1 : Fin 2) * 16 + 16
    rw [e1]; omega

end AtEntry

/-- After the twenty points the result array holds the whole array's function of the four input arrays as the region
    found them. -/
theorem region1_final (V : (c : Dev nD) → (b : Ref sig .tc) → Buf (Elt Ideal) ((c : Thread nD τ).loc b)) (c : Dev nD) :
    (Gen.dat1 (F := Ideal) V c).arrAt 4 cfg1.N = Cert.Gcn.reluLin (V c main_v26) (V c main_v15) (V c main_v27) (V c main_arg4) :=
  (Gen.dat1 (F := Ideal) V c).arrAt_eq_of_cover 4 (Cert.Gcn.reluLin (V c main_v26) (V c main_v15) (V c main_v27) (V c main_arg4))
    (fun t _ => writeback_eq V c t) blocks_cover

end Cert.KernelIdeal.GcnVal1

end
-- ==== Proof.HostReadsB.lean ====
/-
  The kernel program's result buffer as a function of its six argument arrays.

  Between the launch and the first tiled kernel the host builds the edge list with the self-loops appended (src, dst),
  counts the in-degrees by a scatter-add of ones, and forms the per-node factors and their column; these are the
  reference's own first stages, operation for operation.  The first tiled kernel leaves the scaled rows of x·W₁.
  Between the two tiled kernels the host gathers those rows at src and adds them up at dst, and reshapes the first
  bias to a row.  The second tiled kernel leaves the scaled rows of the second product.  After it the host gathers
  and adds up once more, scales row n by the factor of n and adds the second bias.  A stretch of host operations
  changes only the buffers its operations write, and a tiled kernel only its output array: every other buffer holds
  what it held before, which is how the edge list, the factors and the arguments reach the places that read them.
-/
import proofs.«178974_j63625645523608_2_alg».proof.Proof.HostReadsA
import proofs.«178974_j63625645523608_2_alg».proof.Proof.Region0
import proofs.«178974_j63625645523608_2_alg».proof.Proof.Region1

set_option maxRecDepth 16384

noncomputable section

namespace Cert.KernelIdeal.GcnHost

open Cert.KernelIdeal Cert.KernelIdeal.Gen Cert.KernelIdeal.Facts₀
open Idealize.ShloMosaic Idealize.ShloMosaic.TcCoe Idealize.SL.Sem Idealize.ShloMosaic.StableHlo
open Cert.ReferenceIdeal.ReadP (val_main_v5 val_main_v6 val_main_v84 val_main_v89 val_main_v90)
open Cert.Gcn (dcol agg1 agg2 outK scaledLin reluLin)

variable (m : (ℓ : Loc nD τ sig) → Buf (Elt Ideal) ℓ) (ρ : Dev nD → PrngReg) (c : Dev nD)

/-! ## After the first tiled kernel -/

/-- The first tiled kernel's output array: the scaled rows of x·W₁. -/
theorem W4_rows : W4 (F := Ideal) m ρ c (Proc.devRef .tc main_v16) = scaledLin (m ((c : Thread nD τ).loc main_arg0)) (m ((c : Thread nD τ).loc main_arg2)) (dcol (m ((c : Thread nD τ).loc main_arg1))) := by
  refine (W4_arr m ρ c 3).trans ?_
  refine (Cert.KernelIdeal.GcnVal0.region0_final (V3 m ρ) c).trans ?_
  show scaledLin (W3 m ρ c (Proc.devRef .tc main_arg0)) (W3 m ρ c (Proc.devRef .tc main_arg2)) (W3 m ρ c (Proc.devRef .tc main_v15)) = _
  rw [W3_arg0, W3_arg2, W3_dcol]

theorem W4_src : W4 (F := Ideal) m ρ c (Proc.devRef .tc main_v5) = val_main_v5 (F := Ideal) (m ((c : Thread nD τ).loc main_arg1)) :=
  (W4_of_ne m ρ c main_v5 (by decide)).trans (W3_src m ρ c)
theorem W4_dst : W4 (F := Ideal) m ρ c (Proc.devRef .tc main_v6) = val_main_v6 (F := Ideal) (m ((c : Thread nD τ).loc main_arg1)) :=
  (W4_of_ne m ρ c main_v6 (by decide)).trans (W3_dst m ρ c)
/-- The factor column is an input of the first tiled kernel: it ends as it was. -/
theorem W4_dcol : W4 (F := Ideal) m ρ c (Proc.devRef .tc main_v15) = dcol (m ((c : Thread nD τ).loc main_arg1)) :=
  (W4_arr m ρ c 2).trans ((((dat0 (V3 m ρ) c).arrAt_in 2 rfl _).trans (A_eq0 (V3 m ρ) c 2)).trans (W3_dcol m ρ c))
theorem W4_arg3 : W4 (F := Ideal) m ρ c (Proc.devRef .tc main_arg3) = (m ((c : Thread nD τ).loc main_arg3)) :=
  (W4_of_ne m ρ c main_arg3 (by decide)).trans (W3_arg3 m ρ c)
theorem W4_arg4 : W4 (F := Ideal) m ρ c (Proc.devRef .tc main_arg4) = (m ((c : Thread nD τ).loc main_arg4)) :=
  (W4_of_ne m ρ c main_arg4 (by decide)).trans (W3_arg4 m ρ c)
theorem W4_arg5 : W4 (F := Ideal) m ρ c (Proc.devRef .tc main_arg5) = (m ((c : Thread nD τ).loc main_arg5)) :=
  (W4_of_ne m ρ c main_arg5 (by decide)).trans (W3_arg5 m ρ c)

/-! ## Between the two tiled kernels -/

/-- The first layer's rows gathered at the sources and added up at the targets. -/
theorem W5_agg1 : W5 (F := Ideal) m ρ c (Proc.devRef .tc main_v26) = agg1 (m ((c : Thread nD τ).loc main_arg0)) (m ((c : Thread nD τ).loc main_arg1)) (m ((c : Thread nD τ).loc main_arg2)) := by
  show StableHlo.after hostOps1 (W4 m ρ c) (Proc.devRef .tc main_v26) = _
  simp only [hostOps1]
  after_results
  rw [W4_rows, W4_src, W4_dst]
  rfl

theorem W5_dcol : W5 (F := Ideal) m ρ c (Proc.devRef .tc main_v15) = dcol (m ((c : Thread nD τ).loc main_arg1)) := by
  show StableHlo.after hostOps1 (W4 m ρ c) (Proc.devRef .tc main_v15) = _
  simp only [hostOps1]
  after_results
  exact W4_dcol m ρ c

/-- The first bias as a row. -/
theorem W5_bias1 : W5 (F := Ideal) m ρ c (Proc.devRef .tc main_v27) = shapeCast S1x64 (m ((c : Thread nD τ).loc main_arg3)) Facts₀.shapeCasts_S64_S1x64 := by
  show StableHlo.after hostOps1 (W4 m ρ c) (Proc.devRef .tc main_v27) = _
  simp only [hostOps1]
  after_results
  rw [W4_arg3]
  rfl

theorem W5_src : W5 (F := Ideal) m ρ c (Proc.devRef .tc main_v5) = val_main_v5 (F := Ideal) (m ((c : Thread nD τ).loc main_arg1)) := by
  show StableHlo.after hostOps1 (W4 m ρ c) (Proc.devRef .tc main_v5) = _
  simp only [hostOps1]
  after_results
  exact W4_src m ρ c

theorem W5_dst : W5 (F := Ideal) m ρ c (Proc.devRef .tc main_v6) = val_main_v6 (F := Ideal) (m ((c : Thread nD τ).loc main_arg1)) := by
  show StableHlo.after hostOps1 (W4 m ρ c) (Proc.devRef .tc main_v6) = _
  simp only [hostOps1]
  after_results
  exact W4_dst m ρ c

theorem W5_arg4 : W5 (F := Ideal) m ρ c (Proc.devRef .tc main_arg4) = (m ((c : Thread nD τ).loc main_arg4)) := by
  show StableHlo.after hostOps1 (W4 m ρ c) (Proc.devRef .tc main_arg4) = _
  simp only [hostOps1]
  after_results
  exact W4_arg4 m ρ c

theorem W5_arg5 : W5 (F := Ideal) m ρ c (Proc.devRef .tc main_arg5) = (m ((c : Thread nD τ).loc main_arg5)) := by
  show StableHlo.after hostOps1 (W4 m ρ c) (Proc.devRef .tc main_arg5) = _
  simp only [hostOps1]
  after_results
  exact W4_arg5 m ρ c

/-! ## After the second tiled kernel -/

/-- The second tiled kernel's output array: the scaled rows of the second product. -/
theorem W6_rows : W6 (F := Ideal) m ρ c (Proc.devRef .tc main_v28)
    = reluLin (agg1 (m ((c : Thread nD τ).loc main_arg0)) (m ((c : Thread nD τ).loc main_arg1)) (m ((c : Thread nD τ).loc main_arg2))) (dcol (m ((c : Thread nD τ).loc main_arg1))) (shapeCast S1x64 (m ((c : Thread nD τ).loc main_arg3)) Facts₀.shapeCasts_S64_S1x64) (m ((c : Thread nD τ).loc main_arg4)) := by
  refine (W6_arr m ρ c 4).trans ?_
  refine (Cert.KernelIdeal.GcnVal1.region1_final (V5 m ρ) c).trans ?_
  show reluLin (W5 m ρ c (Proc.devRef .tc main_v26)) (W5 m ρ c (Proc.devRef .tc main_v15)) (W5 m ρ c (Proc.devRef .tc main_v27)) (W5 m ρ c (Proc.devRef .tc main_arg4)) = _
  rw [W5_agg1, W5_dcol, W5_bias1, W5_arg4]

/-- The factor column is an input of the second tiled kernel too. -/
theorem W6_dcol : W6 (F := Ideal) m ρ c (Proc.devRef .tc main_v15) = dcol (m ((c : Thread nD τ).loc main_arg1)) :=
  (W6_arr m ρ c 1).trans ((((dat1 (V5 m ρ) c).arrAt_in 1 rfl _).trans (A_eq1 (V5 m ρ) c 1)).trans (W5_dcol m ρ c))
theorem W6_src : W6 (F := Ideal) m ρ c (Proc.devRef .tc main_v5) = val_main_v5 (F := Ideal) (m ((c : Thread nD τ).loc main_arg1)) :=
  (W6_of_ne m ρ c main_v5 (by decide)).trans (W5_src m ρ c)
theorem W6_dst : W6 (F := Ideal) m ρ c (Proc.devRef .tc main_v6) = val_main_v6 (F := Ideal) (m ((c : Thread nD τ).loc main_arg1)) :=
  (W6_of_ne m ρ c main_v6 (by decide)).trans (W5_dst m ρ c)
theorem W6_arg5 : W6 (F := Ideal) m ρ c (Proc.devRef .tc main_arg5) = (m ((c : Thread nD τ).loc main_arg5)) :=
  (W6_of_ne m ρ c main_arg5 (by decide)).trans (W5_arg5 m ρ c)

set_option maxHeartbeats 2000000 in
/-- THE RESULT: the last stretch gathers the second layer's rows at the sources, adds them up at the targets, scales
    row n by the factor of n and adds the second bias.  The index arrays and the all-zero array it builds are the
    reference's stages of the second layer (the same operations on the same edge list). -/
theorem W7_out : W7 (F := Ideal) m ρ c (Proc.devRef .tc main_v43)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W6 m ρ c) (Proc.devRef .tc main_v43) = _
  simp only [hostOps2]
  after_results
  rw [W6_rows, W6_dcol, W6_src, W6_dst, W6_arg5]
  have e90 : broadcastInDim S1700000x1 ![0] Facts₀.bcast_S1700000_S1700000x1_0 (val_main_v6 (F := Ideal) (m ((c : Thread nD τ).loc main_arg1)))
      = val_main_v90 (F := Ideal) (m ((c : Thread nD τ).loc main_arg1)) := rfl
  have e84 : broadcastInDim S1700000x1 ![0] Facts₀.bcast_S1700000_S1700000x1_0
        (select (cmpi .slt (val_main_v5 (F := Ideal) (m ((c : Thread nD τ).loc main_arg1))) (broadcastInDim S1700000 ![] Facts₀.bcast_S_S1700000 (constantI S_ 32 0#32)))
          (addi (val_main_v5 (F := Ideal) (m ((c : Thread nD τ).loc main_arg1))) (broadcastInDim S1700000 ![] Facts₀.bcast_S_S1700000 (constantI S_ 32 100000#32)))
          (val_main_v5 (F := Ideal) (m ((c : Thread nD τ).loc main_arg1))))
      = val_main_v84 (F := Ideal) (m ((c : Thread nD τ).loc main_arg1)) := rfl
  have e89 : broadcastInDim S100000x16 ![] Facts₀.bcast_S_S100000x16 (constant (F := Ideal) S_ .f32 0x00000000#32)
      = val_main_v89 (F := Ideal) := rfl
  rw [e90, e84, e89]
  rfl

end Cert.KernelIdeal.GcnHost

end
-- ==== Proof.SpecProps.lean ====
/-
  The statements the bridge is cut into, named so that each part can be proved on its own.

  FactorOK: every per-node factor is a nonnegative real (the inverse square root of a positive degree, or 0).
  PreEq: the first layer — the kernel's aggregate of pre-scaled rows, scaled by the target's factor, plus the bias, is
  the reference's first convolution (the sum over the edges of a target of the unscaled rows times the product of the two
  factors, plus the bias), entry by entry.
  OutEq: the whole network — the kernel program's result is the reference's.
-/
import proofs.«178974_j63625645523608_2_alg».proof.Proof.Spec

noncomputable section

namespace Cert.Gcn

open Idealize.ShloMosaic Idealize.ShloMosaic.ValueIdx Cert.KernelIdeal Cert.KernelIdeal.Facts₀
open Cert.ReferenceIdeal.ReadP (val_main_v14 val_main_v46 val_main_v94)

/-- Every per-node factor is a nonnegative real. -/
def FactorOK : Prop :=
  ∀ (a1 : IVec S2x1600000 32) (n : S100000.Idx), 0 ≤ val_main_v14 (F := Ideal) a1 n ∧ val_main_v14 (F := Ideal) a1 n ≠ ⊤

/-- The first layer's pre-activation, kernel arrangement = reference arrangement. -/
def PreEq : Prop :=
  ∀ (x : FVec Ideal S100000x256 .f32) (a1 : IVec S2x1600000 32) (w1 : FVec Ideal S256x64 .f32) (b1 : FVec Ideal S64 .f32)
    (n : Fin 100000) (k : Fin 64),
    agg1 x a1 w1 (ix2 n k) * dcol a1 (ix2 n (0 : Fin 1)) + shapeCast S1x64 b1 shapeCasts_S64_S1x64 (ix2 (0 : Fin 1) k)
      = val_main_v46 (F := Ideal) x a1 w1 b1 (ix2 n k)

/-- The kernel program's result is the reference's. -/
def OutEq : Prop :=
  ∀ (x : FVec Ideal S100000x256 .f32) (a1 : IVec S2x1600000 32) (w1 : FVec Ideal S256x64 .f32) (b1 : FVec Ideal S64 .f32)
    (w2 : FVec Ideal S64x16 .f32) (b2 : FVec Ideal S16 .f32),
    outK x a1 w1 b1 w2 b2 = val_main_v94 (F := Ideal) x a1 w1 b1 w2 b2

end Cert.Gcn

end
-- ==== Proof.LibEdgeSum.lean ====
/-
  Sums over the edges of a graph, as a row gather followed by a scatter-add, over the extended reals.

  General facts, no program in them:
  * a nonnegative real factor passes through a finite sum of extended reals (`sum_mul_of_nonneg_of_ne_top`:
    the extended reals do not distribute in general, but (y + z)·c = y·c + z·c for 0 ≤ c < ⊤);
  * which operand element a ROW GATHER reads (operand [N, C], one start index per row e of the result [E, C]:
    row = the index read signed and clamped into [0, N − 1], column kept), and which a VECTOR gather reads
    (operand [N], result [E]);
  * where a ROW SCATTER puts an update row (operand [N, C], updates [E, C]): if update (e, c) lands at (n, c')
    then the scatter index of e, read signed, is n, and c = c' (an update whose index is outside lands nowhere);
  * the EDGE-SUM LAW (`edge_sum_law`): gathering rows already scaled by a per-row factor, summing them at their
    targets and scaling the target row by its factor equals gathering the unscaled rows, scaling each by the
    product of the source's and the target's factors, and summing — provided the factors are nonnegative reals
    and an edge that lands at row n reads the target factor at n.
-/
import Idealize.ShloMosaic.PureOps.Ideal
import Idealize.ShloMosaic.PureOps.Ideal.Laws
import Idealize.ShloMosaic.Lib.ValueIdx

noncomputable section

open scoped BigOperators

namespace Cert.EdgeSum

open Idealize.ShloMosaic Idealize.ShloMosaic.ValueIdx

/-! ## A nonnegative real factor and a finite sum -/

/-- (Σ f)·c = Σ (f·c) over the extended reals when 0 ≤ c < ⊤. -/
theorem sum_mul_of_nonneg_of_ne_top {ι : Type*} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-! ## A row gather: operand [N, C], start indices [E, 1], result [E, C] -/

/-- The dimension numbers of `x[idx]` for a matrix `x : [N, C]` and a vector of E row indices kept as [E, 1]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a row gather reads for result row `j 0`: the start index, signed, clamped into [0, N − 1]. -/
theorem rowGather_row {N E C w : Nat}
    (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (((rowGatherDims N E C wf).operandIdx j idx) 0).val
      = min (idx (ix2 (j 0) (0 : Fin 1))).toInt.toNat (N - 1) := by
  show (rowGatherDims N E C wf).start j idx 0 + (rowGatherDims N E C wf).batchCoord j 0
    + (rowGatherDims N E C wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx j ⟨List.idxOf (0 : Fin 2) (rowGatherDims N E C wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column a row gather reads: the result's own column. -/
theorem rowGather_col {N E C w : Nat}
    (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (((rowGatherDims N E C wf).operandIdx j idx) 1).val = (j 1).val := by
  show (rowGatherDims N E C wf).start j idx 1 + (rowGatherDims N E C wf).batchCoord j 1
    + (rowGatherDims N E C wf).offCoord j 1 = _
  rw [GatherDims.batchCoord_eq_zero _ _ _ List.not_mem_nil]
  have hs : (rowGatherDims N E C wf).start j idx 1 = 0 := by
    unfold GatherDims.start
    rw [dif_neg (show ¬ (1 : Fin 2) ∈ [(0 : Fin 2)] by decide)]
  rw [hs]
  simp only [Nat.add_zero, Nat.zero_add]
  unfold GatherDims.offCoord
  rw [dif_pos (show (1 : Fin 2) ∈ (rowGatherDims N E C wf).sKept from
    (GatherDims.mem_sKept _ _).mpr ⟨(show ¬ (1 : Fin 2) ∈ [(0 : Fin 2)] by decide), List.not_mem_nil⟩)]
  rfl

/-! ## A vector gather: operand [N], start indices [E, 1], result [E] -/

/-- The dimension numbers of `v[idx]` for a vector `v : [N]` and E indices kept as [E, 1]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The element a vector gather reads for result element `j 0`: the start index, signed, clamped into [0, N − 1]. -/
theorem vecGather_elt {N E w : Nat}
    (wf : GatherDims.WF ⟨1, ![N]⟩ ⟨2, ![E, 1]⟩ ⟨1, ![E]⟩ [] [0] [] [0] [] 1 ![1])
    (j : (⟨1, ![E]⟩ : Shape).Idx) (idx : IVec ⟨2, ![E, 1]⟩ w) :
    (((vecGatherDims N E wf).operandIdx j idx) 0).val
      = min (idx (ix2 (j 0) (0 : Fin 1))).toInt.toNat (N - 1) := by
  show (vecGatherDims N E wf).start j idx 0 + (vecGatherDims N E wf).batchCoord j 0
    + (vecGatherDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx j ⟨List.idxOf (0 : Fin 1) (vecGatherDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-! ## A row scatter: operand [N, C], scatter indices [E, 1], updates [E, C] -/

/-- The dimension numbers of `x.at[idx].add(u)` for a matrix `x : [N, C]`, E row indices kept as [E, 1] and update
    rows `u : [E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)
  (j : (⟨2, ![E, C]⟩ : Shape).Idx) (idx : IVec ⟨2, ![E, 1]⟩ w)

theorem rowScatter_start0 :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_window0 : (rowScatterDims N E C wf).window j 0 = 0 := by
  unfold ScatterDims.window
  rw [dif_neg (show ¬ (0 : Fin 2) ∈ (rowScatterDims N E C wf).sKept by simp [ScatterDims.sKept, Shape.kept])]

theorem rowScatter_start1 : (rowScatterDims N E C wf).start j idx 1 = 0 := by
  unfold ScatterDims.start
  rw [dif_neg (show ¬ (1 : Fin 2) ∈ [(0 : Fin 2)] by decide)]

theorem rowScatter_window1 : (rowScatterDims N E C wf).window j 1 = (j 1).val := by
  unfold ScatterDims.window
  rw [dif_pos (show (1 : Fin 2) ∈ (rowScatterDims N E C wf).sKept by simp [ScatterDims.sKept, Shape.kept])]
  rfl

/-- WHERE AN UPDATE LANDS: if update (e, c) lands at operand index `i`, the scatter index of row e, read signed,
    is `i`'s row, and the column is the update's own. -/
theorem rowScatter_lands (i : (⟨2, ![N, C]⟩ : Shape).Idx)
    (h : (rowScatterDims N E C wf).resultIdx? j idx = some i) :
    (idx (ix2 (j 0) (0 : Fin 1))).toInt = ((i 0).val : Int) ∧ (j 1).val = (i 1).val := by
  unfold ScatterDims.resultIdx? at h
  split at h
  · rename_i hall
    have hi := Option.some.inj h
    have h0 := congrArg Fin.val (congrFun hi 0)
    have h1 := congrArg Fin.val (congrFun hi 1)
    have a0 := hall 0
    have a1 := hall 1
    simp only [rowScatter_start0, rowScatter_window0, rowScatter_start1, rowScatter_window1] at h0 h1 a0 a1
    constructor
    · omega
    · omega
  · exact absurd h (by simp)

end RowScatter

/-! ## The normalising factor, and numpy's negative indices -/

/-- The f32 word of 1.0 denotes the real 1. -/
theorem one_word : Ideal.ofBits .f32 0x3F800000#32 = ((1 : ℝ) : EReal) := by
  simp [Ideal.ofBits, Ideal.ieee]
  norm_cast
  norm_num

/-- The inverse square root of anything bounded below by a positive quantity is a nonnegative real: the maximum is a
    positive real or +∞, whose inverse square roots are a nonnegative real and 0. -/
theorem rsqrt_max_nonneg (d one : EReal) (h1 : 0 < one) :
    0 ≤ Ideal.rsqrt (max d one) ∧ Ideal.rsqrt (max d one) ≠ ⊤ := by
  have hy : 0 < max d one := lt_max_of_lt_right h1
  generalize max d one = y at hy
  induction y using EReal.rec with
  | bot => exact absurd hy (by simp)
  | coe r =>
    have hr : 0 < r := by exact_mod_cast hy
    have e : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    rw [e]
    exact ⟨EReal.coe_nonneg.mpr (inv_nonneg.mpr (Real.sqrt_nonneg r)), EReal.coe_ne_top _⟩
  | top => exact ⟨le_of_eq rfl, by show (0 : EReal) ≠ ⊤; exact EReal.zero_ne_top⟩

/-- A 32-bit index whose signed value is a natural number n below N is left alone by "add N if negative", and
    clamping it into [0, N − 1] gives n back. -/
theorem wrap_clamp_of_toInt (N : Nat) (w : BitVec 32) (x : BitVec 32) (n : Nat) (hn : n < N) (hx : x.toInt = (n : Int)) :
    min (Scalar.select (IntOp.cmpi .slt x 0#32) (IntOp.addi x w) x).toInt.toNat (N - 1) = n := by
  have hs : IntOp.cmpi .slt x 0#32 = 0#1 := by
    show BitVec.ofBool (x.slt 0#32) = 0#1
    have : x.slt 0#32 = false := by
      rw [BitVec.slt_eq_decide]
      simp [hx]
    rw [this]; rfl
  rw [hs, select_zero, hx]
  simp only [Int.toNat_natCast]
  omega

/-! ## The edge-sum law -/

/-- THE EDGE-SUM LAW. `H` holds one row per node, `dis` one factor per node, a nonnegative real; `idxS` names the
    source row of each edge, `idxD` its target row as the scatter reads it (signed, dropped when outside) and `idxDw`
    its target row as a gather reads it (clamped); `hD`: whenever the scatter lands an edge at row n, the gather reads
    row n too. Then
        (Σ over edges landing at row i₀ of H[src]·dis[src]) · dis[i₀]
      = Σ over edges landing at row i₀ of H[src]·(dis[src]·dis[target]),
    entry by entry, both sums started from an all-zero array: the factor dis[i₀] is the same for every edge of the sum
    (`hD`), a nonnegative real passes through a finite sum of extended reals, and the product is associative. -/
theorem edge_sum_law {N E C : Nat}
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (dis : (⟨1, ![N]⟩ : Shape).Idx → EReal)
    (hdis : ∀ n, 0 ≤ dis n ∧ dis n ≠ ⊤)
    (Z : (⟨2, ![N, C]⟩ : Shape).Idx → EReal) (hZ : ∀ i, Z i = 0)
    (idxS idxD idxDw : IVec ⟨2, ![E, 1]⟩ 32)
    (hD : ∀ (e : Fin E) (n : Fin N), (idxD (ix2 e (0 : Fin 1))).toInt = (n.val : Int) →
        min (idxDw (ix2 e (0 : Fin 1))).toInt.toNat (N - 1) = n.val)
    (i : (⟨2, ![N, C]⟩ : Shape).Idx) :
    Ideal.hostScatterAdd (rowScatterDims N E C wfs) Z idxD
        (Host.gather (rowGatherDims N E C wfg) (fun r => H r * dis (ix1 (r 0))) idxS) i * dis (ix1 (i 0))
      = Ideal.hostScatterAdd (rowScatterDims N E C wfs) Z idxD
        (fun j => Host.gather (rowGatherDims N E C wfg) H idxS j
          * (Host.gather (vecGatherDims N E wfv) dis idxS (ix1 (j 0))
              * Host.gather (vecGatherDims N E wfv) dis idxDw (ix1 (j 0)))) i := by
  unfold Ideal.hostScatterAdd
  obtain ⟨h0, ht⟩ := hdis (ix1 (i 0))
  rw [hZ i, zero_add, zero_add, sum_mul_of_nonneg_of_ne_top _ _ h0 ht]
  refine Finset.sum_congr rfl fun j hj => ?_
  have hl := (Finset.mem_filter.mp hj).2
  obtain ⟨hrow, -⟩ := rowScatter_lands wfs j idxD i hl
  have e1 : ix1 (((rowGatherDims N E C wfg).operandIdx j idxS) 0)
      = (vecGatherDims N E wfv).operandIdx (ix1 (j 0)) idxS := funext fun a => Fin.ext (by
    match a with
    | ⟨0, _⟩ => exact (rowGather_row wfg j idxS).trans (vecGather_elt wfv (ix1 (j 0)) idxS).symm)
  have e2 : ix1 (i 0) = (vecGatherDims N E wfv).operandIdx (ix1 (j 0)) idxDw := funext fun a => Fin.ext (by
    match a with
    | ⟨0, _⟩ => exact ((vecGather_elt wfv (ix1 (j 0)) idxDw).trans (hD (j 0) (i 0) hrow)).symm)
  show H ((rowGatherDims N E C wfg).operandIdx j idxS)
        * dis (ix1 (((rowGatherDims N E C wfg).operandIdx j idxS) 0)) * dis (ix1 (i 0))
      = H ((rowGatherDims N E C wfg).operandIdx j idxS)
        * (dis ((vecGatherDims N E wfv).operandIdx (ix1 (j 0)) idxS)
            * dis ((vecGatherDims N E wfv).operandIdx (ix1 (j 0)) idxDw))
  rw [mul_assoc]
  exact congrArg (H ((rowGatherDims N E C wfg).operandIdx j idxS) * ·)
    (congrArg₂ (· * ·) (congrArg dis e1) (congrArg dis e2))

/-- The same law with the sum written as the host's accumulating scatter at the ideal instance (it is that sum). -/
theorem edge_sum_law_host {N E C : Nat}
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (dis : (⟨1, ![N]⟩ : Shape).Idx → EReal)
    (hdis : ∀ n, 0 ≤ dis n ∧ dis n ≠ ⊤)
    (Z : (⟨2, ![N, C]⟩ : Shape).Idx → EReal) (hZ : ∀ i, Z i = 0)
    (idxS idxD idxDw : IVec ⟨2, ![E, 1]⟩ 32)
    (hD : ∀ (e : Fin E) (n : Fin N), (idxD (ix2 e (0 : Fin 1))).toInt = (n.val : Int) →
        min (idxDw (ix2 e (0 : Fin 1))).toInt.toNat (N - 1) = n.val)
    (i : (⟨2, ![N, C]⟩ : Shape).Idx) :
    (Host.scatterAdd (F := Ideal) (φ := .f32) (rowScatterDims N E C wfs) Z idxD
        (Host.gather (α := EReal) (rowGatherDims N E C wfg) (fun r => H r * dis (ix1 (r 0))) idxS) i : EReal)
        * dis (ix1 (i 0))
      = Host.scatterAdd (F := Ideal) (φ := .f32) (rowScatterDims N E C wfs) Z idxD
        (fun j => Host.gather (α := EReal) (rowGatherDims N E C wfg) H idxS j
          * (Host.gather (α := EReal) (vecGatherDims N E wfv) dis idxS (ix1 (j 0))
              * Host.gather (α := EReal) (vecGatherDims N E wfv) dis idxDw (ix1 (j 0)))) i :=
  edge_sum_law wfg wfv wfs H dis hdis Z hZ idxS idxD idxDw hD i

end Cert.EdgeSum

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.Layer1.lean ====
/-
  The first layer of the graph convolution: the kernel program's arrangement of the sum over edges equals the
  reference's, entry by entry, over the extended reals.

  Write H = x·W₁ (one row per node), d n for the factor of node n (the inverse square root of its in-degree, 0 where the
  degree is 0), src / dst for the edge list. The reference adds up, at every target n, the rows H[src e] each scaled by
  the product d[src e]·d[dst e]; the kernel program adds up the rows H[src e]·d[src e], already scaled at their source,
  and scales the sum by d[n] afterwards. The two agree because
    * d n is a nonnegative real (the inverse square root of a positive quantity, or 0), and a nonnegative real factor
      passes through a finite sum of extended reals although the extended reals do not distribute in general;
    * an edge the sum at n collects has dst e = n as a signed number, so the "add N if negative, then clamp" read of the
      factor at dst e reads d n;
    * the product is associative.
  The bias row is added on both sides after that.
-/
import proofs.«178974_j63625645523608_2_alg».proof.Proof.SpecProps
import proofs.«178974_j63625645523608_2_alg».proof.Proof.LibEdgeSum
import proofs.«178974_j63625645523608_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.Gcn.L1

open Idealize.ShloMosaic Idealize.ShloMosaic.ValueIdx Cert.Gcn Cert.KernelIdeal Cert.KernelIdeal.Facts₀
open Cert.EdgeSum (rowGatherDims vecGatherDims rowScatterDims)
open Cert.ReferenceIdeal.ReadP (val_main_v6 val_main_v10 val_main_v11 val_main_v12 val_main_v13 val_main_v14 val_main_v15
  val_main_v21 val_main_v22 val_main_v23 val_main_v24 val_main_v25 val_main_v26 val_main_v27 val_main_v28 val_main_v29
  val_main_v30 val_main_v36 val_main_v37 val_main_v38 val_main_v39 val_main_v40 val_main_v41 val_main_v42 val_main_v43
  val_main_v44 val_main_v45 val_main_v46 val_main_cst_1 val_main_cst_2 val_main_cst_8 val_main_c_4 val_main_c_5
  val_main_call0_v0 val_main_call0_v1
  val_main_v11_apply val_main_v12_apply val_main_v13_apply val_main_v14_apply val_main_v15_apply val_main_v23_apply
  val_main_v24_apply val_main_v25_apply val_main_v26_apply val_main_v27_apply val_main_v28_apply val_main_v30_apply
  val_main_v38_apply val_main_v39_apply val_main_v40_apply val_main_v41_apply val_main_v42_apply val_main_v44_apply
  val_main_v45_apply val_main_v46_apply val_main_cst_1_apply val_main_cst_2_apply val_main_cst_8_apply
  val_main_c_4_apply val_main_c_5_apply val_main_call0_v0_apply val_main_call0_v1_apply
  idx_main_v28 idx_main_v38 idx_main_v39 idx_main_v42 idx_main_v45 lidx_main_v15 ridx_main_v15)

/-! ## The factor is a nonnegative real -/

/-- "The inverse square root of g where g > 0, else 0" is a nonnegative real, whatever extended real g is: for g > 0
    the inverse square root of g = max g g is a nonnegative real (+∞ goes to 0), and 0 is one. -/
theorem factor_range (g : EReal) :
    0 ≤ Scalar.select (Ideal.cmp .ogt g 0) (Ideal.rsqrt g) (0 : EReal)
      ∧ Scalar.select (Ideal.cmp .ogt g 0) (Ideal.rsqrt g) (0 : EReal) ≠ ⊤ := by
  by_cases h : (0 : EReal) < g
  · have hc : Ideal.cmp .ogt g 0 = 1#1 := by
      show BitVec.ofBool (decide ((0 : EReal) < g)) = 1#1
      rw [decide_eq_true h]; rfl
    rw [hc, select_one]
    have hr := Cert.EdgeSum.rsqrt_max_nonneg g g h
    rwa [max_self] at hr
  · have hc : Ideal.cmp .ogt g 0 = 0#1 := by
      show BitVec.ofBool (decide ((0 : EReal) < g)) = 0#1
      rw [decide_eq_false h]; rfl
    rw [hc, select_zero]
    exact ⟨le_refl _, EReal.zero_ne_top⟩

/-- The same with the comparison, the inverse square root and the zero word written as the float operations of the
    ideal instance: there the comparison is the extended reals' order, the host's inverse square root is the extended
    reals', and the zero word denotes 0. -/
theorem factor_range_ops (g : EReal) :
    0 ≤ Scalar.select (FloatOps.cmpf (F := Ideal) (φ := .f32) .ogt g (FloatOps.ofBits .f32 0x00000000#32))
          (FloatOps.hostUnary (F := Ideal) (φ := .f32) .rsqrt g) (FloatOps.ofBits (F := Ideal) .f32 0x00000000#32)
      ∧ Scalar.select (FloatOps.cmpf (F := Ideal) (φ := .f32) .ogt g (FloatOps.ofBits .f32 0x00000000#32))
          (FloatOps.hostUnary (F := Ideal) (φ := .f32) .rsqrt g) (FloatOps.ofBits (F := Ideal) .f32 0x00000000#32) ≠ ⊤ := by
  have e : Scalar.select (FloatOps.cmpf (F := Ideal) (φ := .f32) .ogt g (FloatOps.ofBits .f32 0x00000000#32))
        (FloatOps.hostUnary (F := Ideal) (φ := .f32) .rsqrt g) (FloatOps.ofBits (F := Ideal) .f32 0x00000000#32)
      = Scalar.select (Ideal.cmp .ogt g 0) (Ideal.rsqrt g) (0 : EReal) := by
    show Scalar.select (Ideal.cmp .ogt g (Ideal.ofBits .f32 0x00000000#32))
      (Ideal.rsqrt g) (Ideal.ofBits .f32 0x00000000#32) = _
    rw [Ideal.ofBits_zero_f32]
  rw [e]
  exact factor_range g

/-- Every per-node factor is a nonnegative real: it is the select above at the node's degree. -/
theorem factorOK : Cert.Gcn.FactorOK := by
  intro a1 n
  rw [val_main_v14_apply, val_main_v12_apply, val_main_v13_apply, val_main_v11_apply, val_main_cst_1_apply,
    val_main_call0_v1_apply, val_main_call0_v0_apply, val_main_cst_2_apply]
  exact factor_range_ops (val_main_v10 (F := Ideal) a1 n)

/-! ## The two arrangements' rows -/

/-- The kernel's scaled rows: row r of x·W₁ times the factor of node r, the product x·W₁ being the reference's. -/
theorem scaledLin_eq (x : FVec Ideal S100000x256 .f32) (a1 : IVec S2x1600000 32) (w1 : FVec Ideal S256x64 .f32) :
    scaledLin x w1 (dcol a1)
      = fun r => val_main_v15 (F := Ideal) x w1 r * val_main_v14 (F := Ideal) a1 (ix1 (r 0)) := by
  funext r
  unfold scaledLin
  have ed : dcol a1 (ix2 (r 0 : Fin 100000) (0 : Fin 1)) = val_main_v14 (F := Ideal) a1 (ix1 (r 0)) :=
    shapeCast_a_a1_apply (val_main_v14 (F := Ideal) a1) _ (r 0) 0
  rw [ed, val_main_v15_apply]
  refine congrArg (· * val_main_v14 (F := Ideal) a1 (ix1 (r 0))) (Finset.sum_congr rfl fun q _ => ?_)
  have el : lidx_main_v15 r q = ix2 (r 0 : Fin 100000) q := funext fun a => Fin.ext (by
    match a with
    | ⟨0, _⟩ => rfl
    | ⟨1, _⟩ => rfl)
  have er : ridx_main_v15 r q = ix2 q (r 1 : Fin 64) := funext fun a => Fin.ext (by
    match a with
    | ⟨0, _⟩ => rfl
    | ⟨1, _⟩ => rfl)
  exact (congrArg₂ (· * ·) (congrArg x el) (congrArg w1 er)).symm

/-- The reference's update rows: the gathered row of x·W₁ times the product of the two gathered factors of the edge. -/
theorem updates_eq (x : FVec Ideal S100000x256 .f32) (a1 : IVec S2x1600000 32) (w1 : FVec Ideal S256x64 .f32) :
    val_main_v40 (F := Ideal) x a1 w1
      = fun j => Host.gather (α := EReal)
            (rowGatherDims 100000 1700000 64 Cert.ReferenceIdeal.Gen.gather_S100000x64_S1700000x1_S1700000x64_1_0_n_n_0_1_164_wf)
            (val_main_v15 (F := Ideal) x w1) (val_main_v36 (F := Ideal) a1) j
          * (Host.gather (α := EReal)
                (vecGatherDims 100000 1700000 Cert.ReferenceIdeal.Gen.gather_S100000_S1700000x1_S1700000_n_0_n_n_0_1_1_wf)
                (val_main_v14 (F := Ideal) a1) (val_main_v36 (F := Ideal) a1) (ix1 (j 0))
              * Host.gather (α := EReal)
                (vecGatherDims 100000 1700000 Cert.ReferenceIdeal.Gen.gather_S100000_S1700000x1_S1700000_n_0_n_n_0_1_1_wf)
                (val_main_v14 (F := Ideal) a1) (val_main_v28 (F := Ideal) a1) (ix1 (j 0))) := by
  funext j
  rw [val_main_v40_apply, val_main_v39_apply, val_main_v38_apply, val_main_v30_apply]
  have ej : idx_main_v38 (idx_main_v39 j) = ix1 (j 0) := funext fun a => Fin.ext (by
    match a with
    | ⟨0, _⟩ => rfl)
  rw [ej]
  rfl

/-- The sums start from zero. -/
theorem zeros_eq (i : S100000x64.Idx) : val_main_v41 (F := Ideal) i = 0 := by
  rw [val_main_v41_apply, val_main_cst_8_apply]
  exact Ideal.ofBits_zero_f32

/-- An edge whose target, read signed, is the node n reads the factor of n through "add N if negative, then clamp". -/
theorem target_wrap (a1 : IVec S2x1600000 32) (e : Fin 1700000) (n : Fin 100000)
    (h : (val_main_v42 (F := Ideal) a1 (ix2 e (0 : Fin 1))).toInt = (n.val : Int)) :
    min (val_main_v28 (F := Ideal) a1 (ix2 e (0 : Fin 1))).toInt.toNat (100000 - 1) = n.val := by
  have e42 : idx_main_v42 (ix2 e (0 : Fin 1)) = ix1 e := funext fun a => Fin.ext (by
    match a with
    | ⟨0, _⟩ => rfl)
  have e28 : idx_main_v28 (ix2 e (0 : Fin 1)) = ix1 e := funext fun a => Fin.ext (by
    match a with
    | ⟨0, _⟩ => rfl)
  rw [val_main_v42_apply, e42] at h
  rw [val_main_v28_apply, e28, val_main_v27_apply, val_main_v24_apply, val_main_v26_apply, val_main_v23_apply,
    val_main_v25_apply, val_main_c_4_apply, val_main_c_5_apply]
  exact Cert.EdgeSum.wrap_clamp_of_toInt 100000 100000#32 (val_main_v6 (F := Ideal) a1 (ix1 e)) n.val n.isLt h

/-! ## The first layer -/

/-- The first layer's pre-activation, kernel arrangement = reference arrangement. -/
theorem preEq : Cert.Gcn.PreEq := by
  intro x a1 w1 b1 n k
  have law := Cert.EdgeSum.edge_sum_law_host (N := 100000) (E := 1700000) (C := 64)
    Cert.ReferenceIdeal.Gen.gather_S100000x64_S1700000x1_S1700000x64_1_0_n_n_0_1_164_wf
    Cert.ReferenceIdeal.Gen.gather_S100000_S1700000x1_S1700000_n_0_n_n_0_1_1_wf
    Cert.ReferenceIdeal.Gen.scatter_S100000x64_S1700000x1_S1700000x64_1_0_0_1_wf
    (val_main_v15 (F := Ideal) x w1) (val_main_v14 (F := Ideal) a1) (factorOK a1)
    (val_main_v41 (F := Ideal)) zeros_eq (val_main_v36 (F := Ideal) a1) (val_main_v42 (F := Ideal) a1)
    (val_main_v28 (F := Ideal) a1) (target_wrap a1) (ix2 n k)
  have ed : dcol a1 (ix2 n (0 : Fin 1)) = val_main_v14 (F := Ideal) a1 (ix1 n) :=
    shapeCast_a_a1_apply (val_main_v14 (F := Ideal) a1) _ n 0
  have hsum : agg1 x a1 w1 (ix2 n k) * dcol a1 (ix2 n (0 : Fin 1)) = val_main_v43 (F := Ideal) x a1 w1 (ix2 n k) := by
    unfold agg1 val_main_v43
    rw [scaledLin_eq, updates_eq, ed]
    exact law
  have eb : shapeCast S1x64 b1 shapeCasts_S64_S1x64 (ix2 (0 : Fin 1) k) = val_main_v45 (F := Ideal) b1 (ix2 n k) := by
    have ei : idx_main_v45 (ix2 n k) = ix2 (0 : Fin 1) k := funext fun a => Fin.ext (by
      match a with
      | ⟨0, _⟩ => rfl
      | ⟨1, _⟩ => rfl)
    rw [val_main_v45_apply, ei]
    unfold val_main_v44
    exact congrFun (reshape_row_eq_broadcast b1 shapeCasts_S64_S1x64 _) (ix2 (0 : Fin 1) k)
  rw [val_main_v46_apply, hsum, eb]
  rfl

end Cert.Gcn.L1

end
-- ==== Proof.Layer2.lean ====
/-
  The second layer of the graph convolution and the network's output, as pure functions over the extended reals.

  Write d for the per-node factors (nonnegative reals), src / dst for the edge list.  The kernel arrangement computes
      out[n, c] = d[n] · (Σ over edges e landing at n of (h₂[src e, c] · d[src e])) + b₂[c],
  where h₂[r, c] = Σ_k max(a₁[r, k] · d[r] + b₁[k], 0) · W₂[k, c] and a₁ is the first layer's aggregate.  The reference computes
      out[n, c] = (Σ over edges e landing at n of g[src e, c] · (d[src e] · d[dst e])) + b₂[c],
  where g = max(pre, 0) · W₂ and pre is the reference's first pre-activation.

  Given that the first layers agree (a₁[r, k] · d[r] + b₁[k] = pre[r, k]) the rows h₂ and g are the same sums, so the
  gathered rows of the kernel arrangement are g[r, c] · d[r].  The edge-sum law then moves the target's factor d[n] inside
  the sum: an edge landing at n has target n, d[n] is a nonnegative real and so distributes over the finite sum of
  extended reals, and the product is associative.  The two biases are the same entry b₂[c] read through two layouts.
-/
import proofs.«178974_j63625645523608_2_alg».proof.Proof.SpecProps
import proofs.«178974_j63625645523608_2_alg».proof.Proof.LibEdgeSum
import proofs.«178974_j63625645523608_2_alg».proof.Proof.LibKeepdims
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open scoped BigOperators

namespace Cert.Gcn.L2

open Idealize.ShloMosaic Idealize.ShloMosaic.ValueIdx Cert.Gcn Cert.KernelIdeal Cert.EdgeSum
open Cert.ReferenceIdeal.ReadP (val_main_v14 val_main_v46 val_main_v47 val_main_call1_v0 val_main_call1_cst
  val_main_v47_apply val_main_call1_v0_apply val_main_call1_cst_apply
  val_main_v54 val_main_v62 val_main_v63 val_main_v63_apply lidx_main_v63 ridx_main_v63
  val_main_v69 val_main_v70
  val_main_v71 val_main_v72 val_main_v73 val_main_v74 val_main_v75 val_main_v76 val_main_c_15 val_main_c_16
  val_main_v71_apply val_main_v72_apply val_main_v73_apply val_main_v74_apply val_main_v75_apply val_main_v76_apply
  val_main_c_15_apply val_main_c_16_apply idx_main_v76
  val_main_v77 val_main_v78 val_main_v78_apply
  val_main_v84 val_main_v85 val_main_v86 val_main_v87 val_main_v88
  val_main_v86_apply val_main_v87_apply val_main_v88_apply idx_main_v86 idx_main_v87
  val_main_v89 val_main_cst_19 val_main_v89_apply val_main_cst_19_apply
  val_main_v90 val_main_v90_apply idx_main_v90
  val_main_v91 val_main_v92 val_main_v93 val_main_v94
  val_main_v92_apply val_main_v93_apply val_main_v94_apply idx_main_v92 idx_main_v93)

/-! ## The rectifier and the all-zero starting array -/

/-- The rectified pre-activation is the maximum of the pre-activation and 0. -/
theorem v47_eq (x : FVec Ideal S100000x256 .f32) (a1 : IVec S2x1600000 32) (w1 : FVec Ideal S256x64 .f32)
    (b1 : FVec Ideal S64 .f32) (i : S100000x64.Idx) :
    val_main_v47 (F := Ideal) x a1 w1 b1 i = max (val_main_v46 (F := Ideal) x a1 w1 b1 i) 0 := by
  rw [val_main_v47_apply, val_main_call1_v0_apply, val_main_call1_cst_apply]
  show max _ (Ideal.ofBits .f32 0x00000000#32) = _
  rw [Ideal.ofBits_zero_f32]

/-- The second scatter starts from an all-zero array. -/
theorem v89_zero (i : S100000x16.Idx) : val_main_v89 (F := Ideal) i = 0 := by
  rw [val_main_v89_apply, val_main_cst_19_apply]
  exact Ideal.ofBits_zero_f32

/-! ## The second layer's rows -/

/-- Given the first layer, row r of what the second tiled kernel leaves is row r of max(pre, 0)·W₂ scaled by d r. -/
theorem reluLin_eq (hp : PreEq) (x : FVec Ideal S100000x256 .f32) (a1 : IVec S2x1600000 32) (w1 : FVec Ideal S256x64 .f32)
    (b1 : FVec Ideal S64 .f32) (w2 : FVec Ideal S64x16 .f32) :
    reluLin (agg1 x a1 w1) (dcol a1) (shapeCast S1x64 b1 Cert.KernelIdeal.Gen.shapeCasts_S64_S1x64) w2
      = fun r => val_main_v63 (F := Ideal) x a1 w1 b1 w2 r * val_main_v14 (F := Ideal) a1 (ix1 (r 0)) := by
  funext r
  obtain ⟨p, q, rfl⟩ : ∃ (p : Fin 100000) (q : Fin 16), r = ix2 p q := ⟨r 0, r 1, eq_ix2 r⟩
  have hd : dcol a1 (ix2 p (0 : Fin 1)) = val_main_v14 (F := Ideal) a1 (ix1 p) :=
    shapeCast_a_a1_apply (val_main_v14 (F := Ideal) a1) Cert.KernelIdeal.Gen.shapeCasts_S100000_S100000x1 p 0
  show (∑ k : Fin 64, max (agg1 x a1 w1 (ix2 p k) * dcol a1 (ix2 p (0 : Fin 1))
        + shapeCast S1x64 b1 Cert.KernelIdeal.Gen.shapeCasts_S64_S1x64 (ix2 (0 : Fin 1) k)) 0 * w2 (ix2 k q)) * dcol a1 (ix2 p (0 : Fin 1))
      = val_main_v63 (F := Ideal) x a1 w1 b1 w2 (ix2 p q) * val_main_v14 (F := Ideal) a1 (ix1 p)
  refine congrArg₂ (· * ·) ?_ hd
  rw [val_main_v63_apply]
  refine Finset.sum_congr rfl fun k _ => ?_
  have el : lidx_main_v63 (ix2 p q) k = ix2 p k := funext fun a => by
    match a with
    | ⟨0, _⟩ => rfl
    | ⟨1, _⟩ => rfl
  have er : ridx_main_v63 (ix2 p q) k = ix2 k q := funext fun a => by
    match a with
    | ⟨0, _⟩ => rfl
    | ⟨1, _⟩ => rfl
  rw [hp x a1 w1 b1 p k, el, er, v47_eq]

/-! ## The reference's scaled rows, in the form of the edge-sum law -/

/-- Each update row of the reference's second scatter is the gathered row of max(pre, 0)·W₂ times the product of the
    source's and the target's factors. -/
theorem v88_eq (x : FVec Ideal S100000x256 .f32) (a1 : IVec S2x1600000 32) (w1 : FVec Ideal S256x64 .f32)
    (b1 : FVec Ideal S64 .f32) (w2 : FVec Ideal S64x16 .f32)
    (wfg : GatherDims.WF ⟨2, ![100000, 16]⟩ ⟨2, ![1700000, 1]⟩ ⟨2, ![1700000, 16]⟩ [1] [0] [] [0] [] 1 ![1, 16])
    (wfv : GatherDims.WF ⟨1, ![100000]⟩ ⟨2, ![1700000, 1]⟩ ⟨1, ![1700000]⟩ [] [0] [] [0] [] 1 ![1]) :
    val_main_v88 (F := Ideal) x a1 w1 b1 w2 = fun j =>
      Host.gather (α := EReal) (rowGatherDims 100000 1700000 16 wfg) (val_main_v63 (F := Ideal) x a1 w1 b1 w2)
          (val_main_v84 (F := Ideal) a1) j
        * (Host.gather (α := EReal) (vecGatherDims 100000 1700000 wfv) (val_main_v14 (F := Ideal) a1)
              (val_main_v84 (F := Ideal) a1) (ix1 (j 0))
            * Host.gather (α := EReal) (vecGatherDims 100000 1700000 wfv) (val_main_v14 (F := Ideal) a1)
              (val_main_v76 (F := Ideal) a1) (ix1 (j 0))) := by
  funext j
  have ej : idx_main_v86 (idx_main_v87 j) = ix1 (j 0) := funext fun a => by
    match a with
    | ⟨0, _⟩ => rfl
  rw [val_main_v88_apply, val_main_v87_apply, val_main_v86_apply, val_main_v78_apply, ej]
  rfl

/-- An edge whose target, read signed, is the node n has its wrapped target clamped to n. -/
theorem target_clamp (a1 : IVec S2x1600000 32) (e : Fin 1700000) (m : Fin 100000)
    (hx : (val_main_v90 (F := Ideal) a1 (ix2 e (0 : Fin 1))).toInt = (m.val : Int)) :
    min (val_main_v76 (F := Ideal) a1 (ix2 e (0 : Fin 1))).toInt.toNat (100000 - 1) = m.val := by
  have e90 : idx_main_v90 (ix2 e (0 : Fin 1)) = ix1 e := funext fun a => by
    match a with
    | ⟨0, _⟩ => rfl
  have e76 : idx_main_v76 (ix2 e (0 : Fin 1)) = ix1 e := funext fun a => by
    match a with
    | ⟨0, _⟩ => rfl
  rw [val_main_v90_apply, e90] at hx
  rw [val_main_v76_apply, e76, val_main_v75_apply, val_main_v72_apply, val_main_v74_apply, val_main_v71_apply,
    val_main_v73_apply, val_main_c_15_apply, val_main_c_16_apply]
  exact wrap_clamp_of_toInt 100000 100000#32 _ m.val m.isLt hx

/-! ## The dimension records of the two programs are the edge-sum law's -/

/-- The kernel program's row gather at [100000, 16] is the law's. -/
theorem gatherK_eq : Cert.KernelIdeal.gather_S100000x16_S1700000x1_S1700000x16_1_0_n_n_0_1_116
    = rowGatherDims 100000 1700000 16 Cert.KernelIdeal.Gen.gather_S100000x16_S1700000x1_S1700000x16_1_0_n_n_0_1_116_wf := rfl

/-- The kernel program's row scatter at [100000, 16] is the law's. -/
theorem scatterK_eq : Cert.KernelIdeal.scatter_S100000x16_S1700000x1_S1700000x16_1_0_0_1
    = rowScatterDims 100000 1700000 16 Cert.KernelIdeal.Gen.scatter_S100000x16_S1700000x1_S1700000x16_1_0_0_1_wf := rfl

/-- The reference's row scatter at [100000, 16] is the law's. -/
theorem scatterR_eq : Cert.ReferenceIdeal.scatter_S100000x16_S1700000x1_S1700000x16_1_0_0_1
    = rowScatterDims 100000 1700000 16 Cert.KernelIdeal.Gen.scatter_S100000x16_S1700000x1_S1700000x16_1_0_0_1_wf := rfl

/-! ## The two aggregates in the form of the edge-sum law -/

/-- The kernel arrangement's second aggregate: the rows of max(pre, 0)·W₂, each scaled by its own factor, gathered at
    the sources and added up at the targets. -/
theorem agg2_eq (hp : PreEq) (x : FVec Ideal S100000x256 .f32) (a1 : IVec S2x1600000 32) (w1 : FVec Ideal S256x64 .f32)
    (b1 : FVec Ideal S64 .f32) (w2 : FVec Ideal S64x16 .f32) :
    agg2 x a1 w1 b1 w2
      = Host.scatterAdd (F := Ideal) (φ := .f32)
          (rowScatterDims 100000 1700000 16 Cert.KernelIdeal.Gen.scatter_S100000x16_S1700000x1_S1700000x16_1_0_0_1_wf)
          (val_main_v89 (F := Ideal)) (val_main_v90 (F := Ideal) a1)
          (Host.gather (α := EReal)
            (rowGatherDims 100000 1700000 16 Cert.KernelIdeal.Gen.gather_S100000x16_S1700000x1_S1700000x16_1_0_n_n_0_1_116_wf)
            (fun r => val_main_v63 (F := Ideal) x a1 w1 b1 w2 r * val_main_v14 (F := Ideal) a1 (ix1 (r 0)))
            (val_main_v84 (F := Ideal) a1)) := by
  unfold agg2
  rw [reluLin_eq hp, gatherK_eq, scatterK_eq]

/-- The reference's second aggregate: the gathered rows of max(pre, 0)·W₂, each times the product of its source's and
    its target's factors, added up at the targets. -/
theorem v91_eq (x : FVec Ideal S100000x256 .f32) (a1 : IVec S2x1600000 32) (w1 : FVec Ideal S256x64 .f32)
    (b1 : FVec Ideal S64 .f32) (w2 : FVec Ideal S64x16 .f32) :
    val_main_v91 (F := Ideal) x a1 w1 b1 w2
      = Host.scatterAdd (F := Ideal) (φ := .f32)
          (rowScatterDims 100000 1700000 16 Cert.KernelIdeal.Gen.scatter_S100000x16_S1700000x1_S1700000x16_1_0_0_1_wf)
          (val_main_v89 (F := Ideal)) (val_main_v90 (F := Ideal) a1)
          (fun j =>
            Host.gather (α := EReal)
                (rowGatherDims 100000 1700000 16 Cert.KernelIdeal.Gen.gather_S100000x16_S1700000x1_S1700000x16_1_0_n_n_0_1_116_wf)
                (val_main_v63 (F := Ideal) x a1 w1 b1 w2) (val_main_v84 (F := Ideal) a1) j
              * (Host.gather (α := EReal)
                    (vecGatherDims 100000 1700000 Cert.ReferenceIdeal.Gen.gather_S100000_S1700000x1_S1700000_n_0_n_n_0_1_1_wf)
                    (val_main_v14 (F := Ideal) a1) (val_main_v84 (F := Ideal) a1) (ix1 (j 0))
                  * Host.gather (α := EReal)
                    (vecGatherDims 100000 1700000 Cert.ReferenceIdeal.Gen.gather_S100000_S1700000x1_S1700000_n_0_n_n_0_1_1_wf)
                    (val_main_v14 (F := Ideal) a1) (val_main_v76 (F := Ideal) a1) (ix1 (j 0)))) := by
  unfold val_main_v91
  rw [v88_eq x a1 w1 b1 w2
    Cert.KernelIdeal.Gen.gather_S100000x16_S1700000x1_S1700000x16_1_0_n_n_0_1_116_wf
    Cert.ReferenceIdeal.Gen.gather_S100000_S1700000x1_S1700000_n_0_n_n_0_1_1_wf, scatterR_eq]

/-! ## The output -/

/-- One entry of b₂ read through the kernel program's layout (a one-row matrix stretched down the rows) and through the
    reference's (stretched along axis 1, then down the rows). -/
theorem bias_eq (b2 : FVec Ideal S16 .f32) (n : Fin 100000) (c : Fin 16) :
    broadcastInDim S100000x16 ![0, 1] Cert.KernelIdeal.Gen.bcast_S1x16_S100000x16_0_1
        (shapeCast S1x16 b2 Cert.KernelIdeal.Gen.shapeCasts_S16_S1x16) (ix2 n c)
      = val_main_v93 (F := Ideal) b2 (ix2 n c) := by
  have e92 : idx_main_v92 (idx_main_v93 (ix2 n c)) = ix1 c := funext fun a => by
    match a with
    | ⟨0, _⟩ => rfl
  rw [val_main_v93_apply, val_main_v92_apply, e92]
  exact (broadcastInDim_oneRow_apply Cert.KernelIdeal.Gen.bcast_S1x16_S100000x16_0_1 _ n c).trans
    (shapeCast_a_1a_apply b2 Cert.KernelIdeal.Gen.shapeCasts_S16_S1x16 0 c)

/-- The aggregates agree once the target's factor is moved inside the sum: the edge-sum law. -/
theorem main_eq (hf : FactorOK) (hp : PreEq) (x : FVec Ideal S100000x256 .f32) (a1 : IVec S2x1600000 32)
    (w1 : FVec Ideal S256x64 .f32) (b1 : FVec Ideal S64 .f32) (w2 : FVec Ideal S64x16 .f32) (n : Fin 100000) (c : Fin 16) :
    dcol a1 (ix2 n (0 : Fin 1)) * agg2 x a1 w1 b1 w2 (ix2 n c) = val_main_v91 (F := Ideal) x a1 w1 b1 w2 (ix2 n c) := by
  have hd : dcol a1 (ix2 n (0 : Fin 1)) = val_main_v14 (F := Ideal) a1 (ix1 n) :=
    shapeCast_a_a1_apply (val_main_v14 (F := Ideal) a1) Cert.KernelIdeal.Gen.shapeCasts_S100000_S100000x1 n 0
  rw [mul_comm (dcol a1 (ix2 n (0 : Fin 1))) (agg2 x a1 w1 b1 w2 (ix2 n c)), hd, agg2_eq hp, v91_eq]
  exact edge_sum_law_host (N := 100000) (E := 1700000) (C := 16)
    Cert.KernelIdeal.Gen.gather_S100000x16_S1700000x1_S1700000x16_1_0_n_n_0_1_116_wf
    Cert.ReferenceIdeal.Gen.gather_S100000_S1700000x1_S1700000_n_0_n_n_0_1_1_wf
    Cert.KernelIdeal.Gen.scatter_S100000x16_S1700000x1_S1700000x16_1_0_0_1_wf
    (val_main_v63 (F := Ideal) x a1 w1 b1 w2) (val_main_v14 (F := Ideal) a1) (hf a1)
    (val_main_v89 (F := Ideal)) v89_zero
    (val_main_v84 (F := Ideal) a1) (val_main_v90 (F := Ideal) a1) (val_main_v76 (F := Ideal) a1)
    (target_clamp a1) (ix2 n c)

/-- Given that the factors are nonnegative reals and that the first layers agree, the kernel program's result is the
    reference's. -/
theorem outEq_of (hf : Cert.Gcn.FactorOK) (hp : Cert.Gcn.PreEq) : Cert.Gcn.OutEq := by
  intro x a1 w1 b1 w2 b2
  funext i
  obtain ⟨n, c, rfl⟩ : ∃ (n : Fin 100000) (c : Fin 16), i = ix2 n c := ⟨i 0, i 1, eq_ix2 i⟩
  unfold outK
  rw [addf_apply, mulf_apply, val_main_v94_apply, Ideal.addf_def,
    broadcastInDim_a1_ab_apply Cert.KernelIdeal.Gen.bcast_S100000x1_S100000x16_0_1 (dcol a1) n c,
    main_eq hf hp, bias_eq]

end Cert.Gcn.L2

end
-- ==== Proof.lean ====
/-
  A two-layer graph convolution: a program of two tiled kernels with host operations around them, against a plain
  reference, over the extended reals.

  Both programs build the same edge list (the given edges plus one self-loop per node), count the in-degrees and form
  the per-node factors d n = 1/√(deg n) (0 where the degree is 0).  A layer of the REFERENCE multiplies the rows of
  h = x·W by d[src e]·d[dst e] edge by edge and adds them up at the targets:  out[n] = Σ_{e → n} h[src e]·(d[src e]·d[dst e]) + b.
  The KERNEL program scales row r of h by d r inside the tiled kernel, adds the scaled rows up at the targets, and
  scales the sum by the target's factor afterwards:  out[n] = (Σ_{e → n} h[src e]·d[src e])·d n + b  — in the first layer
  the last scaling, the bias and the maximum against 0 are fused into the second tiled kernel, in the second layer the
  host does them.  The two agree on the extended reals because an edge the scatter lands at row n has target n (so the
  reference's gather of d at the target reads d n), d n is a nonnegative real (such a factor passes through a finite sum
  of extended reals, where distributivity fails in general), and the product is associative.  No finiteness of the float
  inputs is needed: the precondition is never opened.

  The parts: the kernel program's run with its result buffer named (KernelRun); what each tiled kernel leaves in its
  output array as a function of its input arrays (Region0, Region1, over SpecTiles); the host stretches read back, which
  give the result buffer as the function outK of the six argument arrays (HostReadsA, HostReadsB, over Spec); the
  reference's run and its stages (RefRunP, RefReadP); and the algebra outK = the reference's last stage (Layer1, Layer2,
  over the edge-sum law of LibEdgeSum).  The three frames are the generated ones (the reference's is its run with the
  result dropped); the idealization rewrote nothing, so there is nothing to preserve.
-/
import proofs.«178974_j63625645523608_2_alg».proof.Defs
import proofs.«178974_j63625645523608_2_alg».proof.Proof.Gen.Kernel
import proofs.«178974_j63625645523608_2_alg».proof.Proof.Gen.Kernel.Frame
import proofs.«178974_j63625645523608_2_alg».proof.Proof.Gen.KernelIdeal
import proofs.«178974_j63625645523608_2_alg».proof.Proof.Gen.KernelIdeal.Frame
import proofs.«178974_j63625645523608_2_alg».proof.Proof.Gen.ReferenceIdeal
import proofs.«178974_j63625645523608_2_alg».proof.Proof.Gen.Pre_finite_inputs
import proofs.«178974_j63625645523608_2_alg».proof.Proof.RefImports
import proofs.«178974_j63625645523608_2_alg».proof.Proof.HostReadsB
import proofs.«178974_j63625645523608_2_alg».proof.Proof.Layer1
import proofs.«178974_j63625645523608_2_alg».proof.Proof.Layer2
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the same result array: the kernel program's result
    buffer holds outK of its arguments, the reference's holds its last stage of the same arguments, and the two are one
    function. -/
theorem algebraic : Cert.algebraic_KernelIdeal_ReferenceIdeal := by
  intro m ρ m' ρ' _ hagree
  refine ⟨fun c => Cert.Gcn.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.GcnHost.W7_out m ρ c), (h c).2⟩)
      (Cert.KernelIdeal.GcnRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v94_eq, (hagree c).1, (hagree c).2.1, (hagree c).2.2.1, (hagree c).2.2.2.1,
      (hagree c).2.2.2.2.1, (hagree c).2.2.2.2.2]
    exact (Cert.Gcn.L2.outEq_of Cert.Gcn.L1.factorOK Cert.Gcn.L1.preEq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
